-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S480000 : Shape := ⟨1, ![480000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S480000 : S_.BroadcastsInDim S480000 (![] : Fin 0 → Fin S480000.rank)
  reducesTo_S480000_S_d0 : S480000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S256x128 .f32) (main_arg12 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S256 .f32) (main_arg7 : FVec F S64x256 .f32) (main_arg8 : FVec F S256 .f32) (main_arg9 : FVec F S256x128 .f32) (main_arg10 : FVec F S128 .f32) (main_arg11 : FVec F S256x128 .f32) (main_arg12 : FVec F S128 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg7
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S30000x64 .f32) (main_arg1 : FVec F S30000x64 .f32) (main_arg2 : IVec S480000 32) (main_arg3 : IVec S480000 32) (main_arg4 : FVec F S480000 .f32) (main_arg5 : FVec F S64x256 .f32) (main_arg6 : FVec F S256 .f32) (main_arg7 : FVec F S64x256 .f32) (main_arg8 : FVec F S256 .f32) (main_arg9 : FVec F S256x128 .f32) (main_arg10 : FVec F S128 .f32) (main_arg11 : FVec F S256x128 .f32) (main_arg12 : FVec F S128 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S480000 .f32 := Host.absf main_arg4
  let main_cst_2 : FVec F S_ .f32 := constant S_ .f32 0x7F800000#32
  let main_v10 : FVec F S480000 .f32 := broadcastInDim S480000 ![] bcast_S_S480000 main_cst_2
  let main_v11 : IVec S480000 1 := cmpf .olt main_v9 main_v10
  let main_c_3 : IVec S_ 1 := constantI S_ 1 1#1
  let main_v12 : IVec S_ 1 := (fun x v => Host.reduce IntOp.andi x v reducesTo_S480000_S_d0 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_arg8 main_arg9 main_arg10 main_arg11 main_arg12 main_v13 main_v16
-- ==== Kernel.lean ====
abbrev S30000x64 : Shape := ⟨2, ![30000, 64]⟩
abbrev S480000 : Shape := ⟨1, ![480000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S480000x1 : Shape := ⟨2, ![480000, 1]⟩
abbrev S_ : Shape := ⟨0, ![]⟩
abbrev S480000x64 : Shape := ⟨2, ![480000, 64]⟩
abbrev S1x256 : Shape := ⟨2, ![1, 256]⟩
abbrev S30000x256 : Shape := ⟨2, ![30000, 256]⟩
abbrev S3000x64 : Shape := ⟨2, ![3000, 64]⟩
abbrev S3000x256 : Shape := ⟨2, ![3000, 256]⟩
abbrev S480000x256 : Shape := ⟨2, ![480000, 256]⟩
abbrev S1x128 : Shape := ⟨2, ![1, 128]⟩
abbrev S30000x128 : Shape := ⟨2, ![30000, 128]⟩
abbrev S3000x128 : Shape := ⟨2, ![3000, 128]⟩

abbrev nBuf : Space → Nat
  | .hbm => 70
  | .vmem => 30
  | .smem => 0
  | _ => 0

abbrev bufTy : (tb : Table) → Fin (tcTables nBuf tb) → BufTy
  | .hbm, ⟨0, _⟩ => ⟨S30000x64, .f32⟩
  | .hbm, ⟨1, _⟩ => ⟨S30000x64, .f32⟩
  | .hbm, ⟨2, _⟩ => ⟨S480000, .i32⟩
  | .hbm, ⟨3, _⟩ => ⟨S480000, .i32⟩
  | .hbm, ⟨4, _⟩ => ⟨S480000, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S480000x1, .f32⟩
  | .hbm, ⟨14, _⟩ => ⟨S_, .i32⟩
  | .hbm, ⟨15, _⟩ => ⟨S480000, .i32⟩
  | .hbm, ⟨16, _⟩ => ⟨S480000, .i1⟩
  | .hbm, ⟨17, _⟩ => ⟨S_, .i32⟩
  | .hbm, ⟨18, _⟩ => ⟨S480000, .i32⟩
  | .hbm, ⟨19, _⟩ => ⟨S480000, .i32⟩
  | .hbm, ⟨20, _⟩ => ⟨S480000, .i32⟩
  | .hbm, ⟨21, _⟩ => ⟨S480000x1, .i32⟩
  | .hbm, ⟨22, _⟩ => ⟨S480000x64, .f32⟩
  | .hbm, ⟨23, _⟩ => ⟨S480000x64, .f32⟩
  | .hbm, ⟨24, _⟩ => ⟨S480000x64, .f32⟩
  | .hbm, ⟨25, _⟩ => ⟨S_, .f32⟩
  | .hbm, ⟨26, _⟩ => ⟨S30000x64, .f32⟩
  | .hbm, ⟨27, _⟩ => ⟨S480000x1, .i32⟩
  | .hbm, ⟨28, _⟩ => ⟨S30000x64, .f32⟩
  | .hbm, ⟨29, _⟩ => ⟨S480000x1, .f32⟩
  | .hbm, ⟨30, _⟩ => ⟨S_, .i32⟩
  | .hbm, ⟨31, _⟩ => ⟨S480000, .i32⟩
  | .hbm, ⟨32, _⟩ => ⟨S480000, .i1⟩
  | .hbm, ⟨33, _⟩ => ⟨S_, .i32⟩
  | .hbm, ⟨34, _⟩ => ⟨S480000, .i32⟩
  | .hbm, ⟨35, _⟩ => ⟨S480000, .i32⟩
  | .hbm, ⟨36, _⟩ => ⟨S480000, .i32⟩
  | .hbm, ⟨37, _⟩ => ⟨S480000x1, .i32⟩
  | .hbm, ⟨38, _⟩ => ⟨S480000x64, .f32⟩
  | .hbm, ⟨39, _⟩ => ⟨S480000x64, .f32⟩
  | .hbm, ⟨40, _⟩ => ⟨S480000x64, .f32⟩
  | .hbm, ⟨41, _⟩ => ⟨S_, .f32⟩
  | .hbm, ⟨42, _⟩ => ⟨S30000x64, .f32⟩
  | .hbm, ⟨43, _⟩ => ⟨S480000x1, .i32⟩
  | .hbm, ⟨44, _⟩ => ⟨S30000x64, .f32⟩
  | .hbm, ⟨45, _⟩ => ⟨S1x256, .f32⟩
  | .hbm, ⟨46, _⟩ => ⟨S1x256, .f32⟩
  | .hbm, ⟨47, _⟩ => ⟨S30000x256, .f32⟩
  | .hbm, ⟨48, _⟩ => ⟨S1x256, .f32⟩
  | .hbm, ⟨49, _⟩ => ⟨S1x256, .f32⟩
  | .hbm, ⟨50, _⟩ => ⟨S30000x256, .f32⟩
  | .hbm, ⟨51, _⟩ => ⟨S480000x1, .f32⟩
  | .hbm, ⟨52, _⟩ => ⟨S_, .i32⟩
  | .hbm, ⟨53, _⟩ => ⟨S480000, .i32⟩
  | .hbm, ⟨54, _⟩ => ⟨S480000, .i1⟩
  | .hbm, ⟨55, _⟩ => ⟨S_, .i32⟩
  | .hbm, ⟨56, _⟩ => ⟨S480000, .i32⟩
  | .hbm, ⟨57, _⟩ => ⟨S480000, .i32⟩
  | .hbm, ⟨58, _⟩ => ⟨S480000, .i32⟩
  | .hbm, ⟨59, _⟩ => ⟨S480000x1, .i32⟩
  | .hbm, ⟨60, _⟩ => ⟨S480000x256, .f32⟩
  | .hbm, ⟨61, _⟩ => ⟨S480000x256, .f32⟩
  | .hbm, ⟨62, _⟩ => ⟨S480000x256, .f32⟩
  | .hbm, ⟨63, _⟩ => ⟨S_, .f32⟩
  | .hbm, ⟨64, _⟩ => ⟨S30000x256, .f32⟩
  | .hbm, ⟨65, _⟩ => ⟨S480000x1, .i32⟩
  | .hbm, ⟨66, _⟩ => ⟨S30000x256, .f32⟩
  | .hbm, ⟨67, _⟩ => ⟨S1x128, .f32⟩
  | .hbm, ⟨68, _⟩ => ⟨S1x128, .f32⟩
  | .hbm, ⟨69, _⟩ => ⟨S30000x128, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x256, .f32⟩
  | .local _ .vmem, ⟨5, _⟩ => ⟨S1x256, .f32⟩
  | .local _ .vmem, ⟨6, _⟩ => ⟨S64x256, .f32⟩
  | .local _ .vmem, ⟨7, _⟩ => ⟨S1x256, .f32⟩
  | .local _ .vmem, ⟨8, _⟩ => ⟨S3000x256, .f32⟩
  | .local _ .vmem, ⟨9, _⟩ => ⟨S3000x256, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S64x256, .f32⟩
  | .local _ .vmem, ⟨15, _⟩ => ⟨S1x256, .f32⟩
  | .local _ .vmem, ⟨16, _⟩ => ⟨S64x256, .f32⟩
  | .local _ .vmem, ⟨17, _⟩ => ⟨S1x256, .f32⟩
  | .local _ .vmem, ⟨18, _⟩ => ⟨S3000x256, .f32⟩
  | .local _ .vmem, ⟨19, _⟩ => ⟨S3000x256, .f32⟩
  | .local _ .vmem, ⟨20, _⟩ => ⟨S3000x256, .f32⟩
  | .local _ .vmem, ⟨21, _⟩ => ⟨S3000x256, .f32⟩
  | .local _ .vmem, ⟨22, _⟩ => ⟨S3000x256, .f32⟩
  | .local _ .vmem, ⟨23, _⟩ => ⟨S3000x256, .f32⟩
  | .local _ .vmem, ⟨24, _⟩ => ⟨S256x128, .f32⟩
  | .local _ .vmem, ⟨25, _⟩ => ⟨S1x128, .f32⟩
  | .local _ .vmem, ⟨26, _⟩ => ⟨S256x128, .f32⟩
  | .local _ .vmem, ⟨27, _⟩ => ⟨S1x128, .f32⟩
  | .local _ .vmem, ⟨28, _⟩ => ⟨S3000x128, .f32⟩
  | .local _ .vmem, ⟨29, _⟩ => ⟨S3000x128, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  shapeCasts_S256_S1x256 : S256.ShapeCasts S1x256
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  inb_S3000x256_S3000x256_0_0 : ∀ a, (![0, 0] : Fin 2 → Nat) a + S3000x256.size a ≤ S3000x256.size a
  h_S3000x256 : 0 < S3000x256.numel
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  shapeCasts_S128_S1x128 : S128.ShapeCasts S1x128
  shapeCasts_S3000x256_S3000x256 : S3000x256.ShapeCasts S3000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S3000x128_S3000x128_0_0 : ∀ a, (![0, 0] : Fin 2 → Nat) a + S3000x128.size a ≤ S3000x128.size a
  h_S3000x128 : 0 < S3000x128.numel
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  dot_S3000x64_S64x256_S3000x256_1_0_0_1_n_n_wf : DotDims.WF S3000x64 S64x256 S3000x256 [1] [0] [0] [1] [] []
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  dot_S3000x256_S256x128_S3000x128_1_0_0_1_n_n_wf : DotDims.WF S3000x256 S256x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S30000x64.size a
  hwx0_0 : ∀ i : grid0.Coords, EltTy.bits .f32 = 32 ∨ (Rect.block (s := S30000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S30000x64.size a
  hwx0_1 : ∀ i : grid0.Coords, EltTy.bits .f32 = 32 ∨ (Rect.block (s := S30000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x256.size a ≤ S30000x256.size a
  hwx0_6 : ∀ i : grid0.Coords, EltTy.bits .f32 = 32 ∨ (Rect.block (s := S30000x256) S3000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S30000x64.size a
  hwx1_0 : ∀ i : grid1.Coords, EltTy.bits .f32 = 32 ∨ (Rect.block (s := S30000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S30000x64.size a
  hwx1_1 : ∀ i : grid1.Coords, EltTy.bits .f32 = 32 ∨ (Rect.block (s := S30000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x256.size a ≤ S30000x256.size a
  hwx1_6 : ∀ i : grid1.Coords, EltTy.bits .f32 = 32 ∨ (Rect.block (s := S30000x256) S3000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x256.size a ≤ S30000x256.size a
  hwx2_0 : ∀ i : grid2.Coords, EltTy.bits .f32 = 32 ∨ (Rect.block (s := S30000x256) S3000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x256.size a ≤ S30000x256.size a
  hwx2_1 : ∀ i : grid2.Coords, EltTy.bits .f32 = 32 ∨ (Rect.block (s := S30000x256) S3000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x128.size a ≤ S30000x128.size a
  hwx2_6 : ∀ i : grid2.Coords, EltTy.bits .f32 = 32 ∨ (Rect.block (s := S30000x128) S3000x128.size (cc2_transform_6 i) (hinb2_6 i)).WholeWords (EltTy.packing .f32)

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S3000x64_S64x256_S3000x256_1_0_0_1_n_n : DotDims S3000x64 S64x256 S3000x256 where
  lhsContracting := [1]
  rhsContracting := [0]
  lhsNonContracting := [0]
  rhsNonContracting := [1]
  lhsBatch := []
  rhsBatch := []
  wf := dot_S3000x64_S64x256_S3000x256_1_0_0_1_n_n_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf

abbrev win0_0 : Pipeline.Window sig grid0 :=
  Pipeline.Window.ofSpec (Memref.whole main_v12) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S3000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S3000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S3000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S3000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S3000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S30000x64 : Shape := ⟨2, ![30000, 64]⟩
abbrev S480000 : Shape := ⟨1, ![480000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S480000x1 : Shape := ⟨2, ![480000, 1]⟩
abbrev S_ : Shape := ⟨0, ![]⟩
abbrev S480000x64 : Shape := ⟨2, ![480000, 64]⟩
abbrev S30000x256 : Shape := ⟨2, ![30000, 256]⟩
abbrev S1x256 : Shape := ⟨2, ![1, 256]⟩
abbrev S480000x256 : Shape := ⟨2, ![480000, 256]⟩
abbrev S30000x128 : Shape := ⟨2, ![30000, 128]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S30000x64, .f32⟩
  | .hbm, ⟨1, _⟩ => ⟨S30000x64, .f32⟩
  | .hbm, ⟨2, _⟩ => ⟨S480000, .i32⟩
  | .hbm, ⟨3, _⟩ => ⟨S480000, .i32⟩
  | .hbm, ⟨4, _⟩ => ⟨S480000, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S480000x1, .f32⟩
  | .hbm, ⟨14, _⟩ => ⟨S_, .i32⟩
  | .hbm, ⟨15, _⟩ => ⟨S480000, .i32⟩
  | .hbm, ⟨16, _⟩ => ⟨S480000, .i1⟩
  | .hbm, ⟨17, _⟩ => ⟨S_, .i32⟩
  | .hbm, ⟨18, _⟩ => ⟨S480000, .i32⟩
  | .hbm, ⟨19, _⟩ => ⟨S480000, .i32⟩
  | .hbm, ⟨20, _⟩ => ⟨S480000, .i32⟩
  | .hbm, ⟨21, _⟩ => ⟨S480000x1, .i32⟩
  | .hbm, ⟨22, _⟩ => ⟨S480000x64, .f32⟩
  | .hbm, ⟨23, _⟩ => ⟨S480000x64, .f32⟩
  | .hbm, ⟨24, _⟩ => ⟨S480000x64, .f32⟩
  | .hbm, ⟨25, _⟩ => ⟨S_, .f32⟩
  | .hbm, ⟨26, _⟩ => ⟨S30000x64, .f32⟩
  | .hbm, ⟨27, _⟩ => ⟨S480000x1, .i32⟩
  | .hbm, ⟨28, _⟩ => ⟨S30000x64, .f32⟩
  | .hbm, ⟨29, _⟩ => ⟨S480000x1, .f32⟩
  | .hbm, ⟨30, _⟩ => ⟨S_, .i32⟩
  | .hbm, ⟨31, _⟩ => ⟨S480000, .i32⟩
  | .hbm, ⟨32, _⟩ => ⟨S480000, .i1⟩
  | .hbm, ⟨33, _⟩ => ⟨S_, .i32⟩
  | .hbm, ⟨34, _⟩ => ⟨S480000, .i32⟩
  | .hbm, ⟨35, _⟩ => ⟨S480000, .i32⟩
  | .hbm, ⟨36, _⟩ => ⟨S480000, .i32⟩
  | .hbm, ⟨37, _⟩ => ⟨S480000x1, .i32⟩
  | .hbm, ⟨38, _⟩ => ⟨S480000x64, .f32⟩
  | .hbm, ⟨39, _⟩ => ⟨S480000x64, .f32⟩
  | .hbm, ⟨40, _⟩ => ⟨S480000x64, .f32⟩
  | .hbm, ⟨41, _⟩ => ⟨S_, .f32⟩
  | .hbm, ⟨42, _⟩ => ⟨S30000x64, .f32⟩
  | .hbm, ⟨43, _⟩ => ⟨S480000x1, .i32⟩
  | .hbm, ⟨44, _⟩ => ⟨S30000x64, .f32⟩
  | .hbm, ⟨45, _⟩ => ⟨S30000x256, .f32⟩
  | .hbm, ⟨46, _⟩ => ⟨S1x256, .f32⟩
  | .hbm, ⟨47, _⟩ => ⟨S30000x256, .f32⟩
  | .hbm, ⟨48, _⟩ => ⟨S30000x256, .f32⟩
  | .hbm, ⟨49, _⟩ => ⟨S30000x256, .f32⟩
  | .hbm, ⟨50, _⟩ => ⟨S1x256, .f32⟩
  | .hbm, ⟨51, _⟩ => ⟨S30000x256, .f32⟩
  | .hbm, ⟨52, _⟩ => ⟨S30000x256, .f32⟩
  | .hbm, ⟨53, _⟩ => ⟨S30000x64, .f32⟩
  | .hbm, ⟨54, _⟩ => ⟨S30000x256, .f32⟩
  | .hbm, ⟨55, _⟩ => ⟨S1x256, .f32⟩
  | .hbm, ⟨56, _⟩ => ⟨S30000x256, .f32⟩
  | .hbm, ⟨57, _⟩ => ⟨S30000x256, .f32⟩
  | .hbm, ⟨58, _⟩ => ⟨S30000x64, .f32⟩
  | .hbm, ⟨59, _⟩ => ⟨S30000x256, .f32⟩
  | .hbm, ⟨60, _⟩ => ⟨S1x256, .f32⟩
  | .hbm, ⟨61, _⟩ => ⟨S30000x256, .f32⟩
  | .hbm, ⟨62, _⟩ => ⟨S30000x256, .f32⟩
  | .hbm, ⟨63, _⟩ => ⟨S30000x256, .f32⟩
  | .hbm, ⟨64, _⟩ => ⟨S30000x256, .f32⟩
  | .hbm, ⟨65, _⟩ => ⟨S_, .f32⟩
  | .hbm, ⟨66, _⟩ => ⟨S30000x256, .f32⟩
  | .hbm, ⟨67, _⟩ => ⟨S30000x256, .f32⟩
  | .hbm, ⟨68, _⟩ => ⟨S_, .f32⟩
  | .hbm, ⟨69, _⟩ => ⟨S30000x256, .f32⟩
  | .hbm, ⟨70, _⟩ => ⟨S30000x256, .f32⟩
  | .hbm, ⟨71, _⟩ => ⟨S480000x1, .f32⟩
  | .hbm, ⟨72, _⟩ => ⟨S_, .i32⟩
  | .hbm, ⟨73, _⟩ => ⟨S480000, .i32⟩
  | .hbm, ⟨74, _⟩ => ⟨S480000, .i1⟩
  | .hbm, ⟨75, _⟩ => ⟨S_, .i32⟩
  | .hbm, ⟨76, _⟩ => ⟨S480000, .i32⟩
  | .hbm, ⟨77, _⟩ => ⟨S480000, .i32⟩
  | .hbm, ⟨78, _⟩ => ⟨S480000, .i32⟩
  | .hbm, ⟨79, _⟩ => ⟨S480000x1, .i32⟩
  | .hbm, ⟨80, _⟩ => ⟨S480000x256, .f32⟩
  | .hbm, ⟨81, _⟩ => ⟨S480000x256, .f32⟩
  | .hbm, ⟨82, _⟩ => ⟨S480000x256, .f32⟩
  | .hbm, ⟨83, _⟩ => ⟨S_, .f32⟩
  | .hbm, ⟨84, _⟩ => ⟨S30000x256, .f32⟩
  | .hbm, ⟨85, _⟩ => ⟨S480000x1, .i32⟩
  | .hbm, ⟨86, _⟩ => ⟨S30000x256, .f32⟩
  | .hbm, ⟨87, _⟩ => ⟨S480000x1, .f32⟩
  | .hbm, ⟨88, _⟩ => ⟨S_, .i32⟩
  | .hbm, ⟨89, _⟩ => ⟨S480000, .i32⟩
  | .hbm, ⟨90, _⟩ => ⟨S480000, .i1⟩
  | .hbm, ⟨91, _⟩ => ⟨S_, .i32⟩
  | .hbm, ⟨92, _⟩ => ⟨S480000, .i32⟩
  | .hbm, ⟨93, _⟩ => ⟨S480000, .i32⟩
  | .hbm, ⟨94, _⟩ => ⟨S480000, .i32⟩
  | .hbm, ⟨95, _⟩ => ⟨S480000x1, .i32⟩
  | .hbm, ⟨96, _⟩ => ⟨S480000x256, .f32⟩
  | .hbm, ⟨97, _⟩ => ⟨S480000x256, .f32⟩
  | .hbm, ⟨98, _⟩ => ⟨S480000x256, .f32⟩
  | .hbm, ⟨99, _⟩ => ⟨S_, .f32⟩
  | .hbm, ⟨100, _⟩ => ⟨S30000x256, .f32⟩
  | .hbm, ⟨101, _⟩ => ⟨S480000x1, .i32⟩
  | .hbm, ⟨102, _⟩ => ⟨S30000x256, .f32⟩
  | .hbm, ⟨103, _⟩ => ⟨S30000x128, .f32⟩
  | .hbm, ⟨104, _⟩ => ⟨S1x128, .f32⟩
  | .hbm, ⟨105, _⟩ => ⟨S30000x128, .f32⟩
  | .hbm, ⟨106, _⟩ => ⟨S30000x128, .f32⟩
  | .hbm, ⟨107, _⟩ => ⟨S30000x128, .f32⟩
  | .hbm, ⟨108, _⟩ => ⟨S1x128, .f32⟩
  | .hbm, ⟨109, _⟩ => ⟨S30000x128, .f32⟩
  | .hbm, ⟨110, _⟩ => ⟨S30000x128, .f32⟩
  | .hbm, ⟨111, _⟩ => ⟨S30000x256, .f32⟩
  | .hbm, ⟨112, _⟩ => ⟨S30000x128, .f32⟩
  | .hbm, ⟨113, _⟩ => ⟨S1x128, .f32⟩
  | .hbm, ⟨114, _⟩ => ⟨S30000x128, .f32⟩
  | .hbm, ⟨115, _⟩ => ⟨S30000x128, .f32⟩
  | .hbm, ⟨116, _⟩ => ⟨S30000x256, .f32⟩
  | .hbm, ⟨117, _⟩ => ⟨S30000x128, .f32⟩
  | .hbm, ⟨118, _⟩ => ⟨S1x128, .f32⟩
  | .hbm, ⟨119, _⟩ => ⟨S30000x128, .f32⟩
  | .hbm, ⟨120, _⟩ => ⟨S30000x128, .f32⟩
  | .hbm, ⟨121, _⟩ => ⟨S30000x128, .f32⟩
  | .hbm, ⟨122, _⟩ => ⟨S30000x128, .f32⟩
  | .hbm, ⟨123, _⟩ => ⟨S_, .f32⟩
  | .hbm, ⟨124, _⟩ => ⟨S30000x128, .f32⟩
  | .hbm, ⟨125, _⟩ => ⟨S30000x128, .f32⟩
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_4 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_7 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_call2_cst : Ref sig .tc := ⟨.hbm, 123, rfl⟩
abbrev main_call2_v0 : Ref sig .tc := ⟨.hbm, 124, rfl⟩
abbrev main_v94 : Ref sig .tc := ⟨.hbm, 125, rfl⟩

abbrev nD : Nat := 1
abbrev τ : Topo := Topo.v7x

variable {F : FTy → Type} [FloatOps F]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  bcast_S480000x1_S480000x256_0_1 : S480000x1.BroadcastsInDim S480000x256 (![0, 1] : Fin 2 → Fin S480000x256.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S30000x128 : S_.BroadcastsInDim S30000x128 (![] : Fin 0 → Fin S30000x128.rank)
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  dot_S30000x64_S64x256_S30000x256_1_0_0_1_n_n_wf : DotDims.WF S30000x64 S64x256 S30000x256 [1] [0] [0] [1] [] []
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  dot_S30000x256_S256x128_S30000x128_1_0_0_1_n_n_wf : DotDims.WF S30000x256 S256x128 S30000x128 [1] [0] [0] [1] [] []

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x256_S30000x256_1_0_0_1_n_n : DotDims S30000x64 S64x256 S30000x256 where
  lhsContracting := [1]
  rhsContracting := [0]
  lhsNonContracting := [0]
  rhsNonContracting := [1]
  lhsBatch := []
  rhsBatch := []
  wf := dot_S30000x64_S64x256_S30000x256_1_0_0_1_n_n_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf

class Facts : Prop extends Facts₀ where

variable [Facts]
-- ==== Proof.KernelRun.lean ====
/-
  The idealized kernel program's run, with its result named.

  The program is three launches of the layer's kernel among stretches of host operations. Its run is followed
  boundary by boundary: the buffer contents after the first host stretch, after the first launch, and so on, the
  last being the contents `W6` when the program returns. Every weakly fair execution terminates without a fault
  in a state whose unscoped buffers hold `W6`; so the result buffer holds `W6` at its reference, and each
  argument still holds what it was launched with.
-/
import proofs.«100432_j88622355186375_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Whole

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibDenseLayer.lean ====
/-
  A dense layer read at an entry, over the extended reals, generic in the sizes.

  * `rowBias_apply`: a length-`B` vector cast to one row `[1, B]` and broadcast down `A` rows reads, at `(r, j)`,
    the vector's entry `j`.
  * `denseLayer_apply`: the matrix unit's product of an `A × K` by a `K × B` matrix into a zero accumulator, plus such
    a row bias, reads at `(r, j)` the sum over `k` of `l (r, k) · w (k, j)`, plus `b j`.
  * `hostDenseLayer_apply`: the same for the host's product, the bias broadcast by the host's two broadcasts.
-/
import proofs.«100432_j88622355186375_1_alg».proof.Proof.LibHostRead

noncomputable section

namespace Cert.LibDense

open Idealize.ShloMosaic Idealize.ShloMosaic.ValueIdx

/-- A vector cast to a one-row matrix and broadcast down the rows: entry `(r, j)` is the vector's entry `j`. -/
theorem rowBias_apply {α : Type} {A B : Nat} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (j : Fin B) :
    broadcastTo ⟨2, ![A, B]⟩ (shapeCast ⟨2, ![1, B]⟩ b h1) h2 (ix2 r j) = b (ix1 j) := by
  refine (broadcastTo_apply _ h2 (ix2 r j) (ix2 (0 : Fin 1) j) fun ax => ?_).trans ?_
  · match ax with
    | ⟨0, _⟩ => rfl
    | ⟨1, _⟩ =>
      show j.val = if B = 1 then 0 else j.val
      split
      · have := j.isLt; omega
      · rfl
  · refine shapeCast_apply b h1 _ _ ?_
    rw [Shape.rowMajor_val_two, Shape.rowMajor_val_one]
    show j.val = 0 * B + j.val
    omega

/-- The matrix unit's product into a zero accumulator plus a row bias, at `(r, j)`. -/
theorem denseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).ShapeCasts ⟨2, ![1, B]⟩) (h2 : (⟨2, ![1, B]⟩ : Shape).Broadcasts ⟨2, ![A, B]⟩)
    (r : Fin A) (j : Fin B) :
    FloatOps.matmul (F := Ideal) (φ₁ := φ₁) (φ₂ := φ₂) (Cert.LibHR.plainDotDims A K B wf) none l w
        (constant (F := Ideal) ⟨2, ![A, B]⟩ .f32 0x00000000#32) (ix2 r j)
      + broadcastTo ⟨2, ![A, B]⟩ (shapeCast ⟨2, ![1, B]⟩ b h1) h2 (ix2 r j)
      = (∑ k : Fin K, l (ix2 r k) * w (ix2 k j)) + b (ix1 j) := by
  rw [Cert.LibHR.plainMatmul_zero_apply, rowBias_apply]

/-- The host's product plus a row bias (the vector broadcast to one row, then down the rows), at `(r, j)`. -/
theorem hostDenseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).BroadcastsInDim ⟨2, ![1, B]⟩ ![1]) (h2 : (⟨2, ![1, B]⟩ : Shape).BroadcastsInDim ⟨2, ![A, B]⟩ ![0, 1])
    (r : Fin A) (j : Fin B) :
    Host.dotGeneral (F := Ideal) (φ₁ := φ₁) (φ₂ := φ₂) (Cert.LibHR.plainDotDims A K B wf) none l w (ix2 r j)
      + broadcastInDim ⟨2, ![A, B]⟩ ![0, 1] h2 (broadcastInDim ⟨2, ![1, B]⟩ ![1] h1 b) (ix2 r j)
      = (∑ k : Fin K, l (ix2 r k) * w (ix2 k j)) + b (ix1 j) := by
  rw [Cert.LibHR.plainDot_apply, Cert.LibHR.bcastRow_apply]

end Cert.LibDense

end
-- ==== Proof.InceptionLayer.lean ====
/-
  One layer of the two-hop graph network, read entry by entry over the extended reals.

  From a neighbourhood aggregate `a` (an `A × K` matrix), a feature matrix `x` of the same shape, two weight
  matrices `w`, `w'` (`K × B`) and two bias vectors `b`, `b'` (length `B`) the layer computes

      max ((a · w + b) + ((a ∘ x) · w' + b'), 0),

  `∘` the entrywise product and each bias added to every row. Entry `(r, j)` depends on row `r` of `a` and of
  `x` only: it is `layerEntry a x w b w' b' r j`.

  * `body_entry`: the kernel's body — two matrix products into zero accumulators, each bias given as a one-row
    matrix broadcast down the rows, the operands rounded to a narrower format on the way in (the identity on
    exact values) — has that entry, the biases read at their row's column `j`.
  * `hostLayer_entry`: the same for the host's layer, whose products are the host's contraction and whose bias
    vectors are broadcast to one row and then down the rows.

  Both are stated for any sizes; no law of arithmetic is used beyond reading each operation at an entry, so
  nothing here asks the entries to be finite.
-/
import proofs.«100432_j88622355186375_1_alg».proof.Proof.LibDenseLayer
import Idealize.ShloMosaic.Lib.ValueIdx
import Idealize.ShloMosaic.Lib.Pipeline.Value

noncomputable section

open scoped BigOperators

namespace Cert.Inception

open Idealize.ShloMosaic Idealize.ShloMosaic.ValueIdx

/-- Entry `(r, j)` of the layer: the larger of zero and the sum of the plain term `Σₖ a(r,k)·w(k,j) + b j` and the
    gated term `Σₖ (a(r,k)·x(r,k))·w'(k,j) + b' j`. -/
def layerEntry {A K B : Nat} (a x : (⟨2, ![A, K]⟩ : Shape).Idx → EReal) (w : (⟨2, ![K, B]⟩ : Shape).Idx → EReal)
    (b : Fin B → EReal) (w' : (⟨2, ![K, B]⟩ : Shape).Idx → EReal) (b' : Fin B → EReal) (r : Fin A) (j : Fin B) : EReal :=
  max (((∑ k : Fin K, a (ix2 r k) * w (ix2 k j)) + b j)
        + ((∑ k : Fin K, (a (ix2 r k) * x (ix2 r k)) * w' (ix2 k j)) + b' j))
    (Ideal.ofBits .f32 0x00000000#32)

/-- The layer as a whole `A × B` array. -/
def layer {A K B : Nat} (a x : (⟨2, ![A, K]⟩ : Shape).Idx → EReal) (w : (⟨2, ![K, B]⟩ : Shape).Idx → EReal)
    (b : Fin B → EReal) (w' : (⟨2, ![K, B]⟩ : Shape).Idx → EReal) (b' : Fin B → EReal) :
    (⟨2, ![A, B]⟩ : Shape).Idx → EReal :=
  fun q => layerEntry a x w b w' b' (q 0) (q 1)

theorem layer_apply {A K B : Nat} (a x : (⟨2, ![A, K]⟩ : Shape).Idx → EReal) (w : (⟨2, ![K, B]⟩ : Shape).Idx → EReal)
    (b : Fin B → EReal) (w' : (⟨2, ![K, B]⟩ : Shape).Idx → EReal) (b' : Fin B → EReal) (r : Fin A) (j : Fin B) :
    layer a x w b w' b' (ix2 r j) = layerEntry a x w b w' b' r j := rfl

/-- Entry `(r, j)` of the layer sees only row `r` of the aggregate and of the features, column `j` of the two weight
    matrices and entry `j` of the two biases: operands that agree there — row `r` of one pair of matrices against
    row `r'` of another, possibly taller, pair — give the same entry. -/
theorem layerEntry_congr {A A' K B : Nat} (a x : (⟨2, ![A, K]⟩ : Shape).Idx → EReal)
    (a' x' : (⟨2, ![A', K]⟩ : Shape).Idx → EReal) (w w₂ : (⟨2, ![K, B]⟩ : Shape).Idx → EReal)
    (b b₂ : Fin B → EReal) (w' w₂' : (⟨2, ![K, B]⟩ : Shape).Idx → EReal) (b' b₂' : Fin B → EReal)
    (r : Fin A) (r' : Fin A') (j : Fin B)
    (ha : ∀ k : Fin K, a (ix2 r k) = a' (ix2 r' k)) (hx : ∀ k : Fin K, x (ix2 r k) = x' (ix2 r' k))
    (hw : ∀ k : Fin K, w (ix2 k j) = w₂ (ix2 k j)) (hb : b j = b₂ j)
    (hw' : ∀ k : Fin K, w' (ix2 k j) = w₂' (ix2 k j)) (hb' : b' j = b₂' j) :
    layerEntry a x w b w' b' r j = layerEntry a' x' w₂ b₂ w₂' b₂' r' j := by
  unfold layerEntry
  simp only [ha, hx, hw, hb, hw', hb']

/-- A one-row matrix broadcast down `A` rows reads, at `(r, j)`, its entry `(0, j)`. -/
theorem rowBcast_apply {α : Type} {A B : Nat} (x : (⟨2, ![1, B]⟩ : Shape).Idx → α)
    (h : (⟨2, ![1, B]⟩ : Shape).Broadcasts ⟨2, ![A, B]⟩) (r : Fin A) (j : Fin B) :
    broadcastTo ⟨2, ![A, B]⟩ x h (ix2 r j) = x (ix2 (0 : Fin 1) j) := by
  refine broadcastTo_apply _ h (ix2 r j) (ix2 (0 : Fin 1) j) fun ax => ?_
  match ax with
  | ⟨0, _⟩ => rfl
  | ⟨1, _⟩ =>
    show j.val = if B = 1 then 0 else j.val
    split
    · have := j.isLt; omega
    · rfl

/-- THE KERNEL'S BODY AT AN ENTRY: with `x0` the aggregate's rows, `x1` the features' rows, `x2`, `x4` the weights and
    `x3`, `x5` the biases as one-row matrices, the stored value at `(r, j)` is the layer's entry. -/
theorem body_entry (A K B : Nat)
    (wf : DotDims.WF ⟨2, ![A, K]⟩ ⟨2, ![K, B]⟩ ⟨2, ![A, B]⟩ [1] [0] [0] [1] [] [])
    (hb : (⟨2, ![1, B]⟩ : Shape).Broadcasts ⟨2, ![A, B]⟩) (hlt : FTy.bits .bf16 < FTy.bits .f32)
    (x0 x1 : FVec Ideal ⟨2, ![A, K]⟩ .f32) (x2 x4 : FVec Ideal ⟨2, ![K, B]⟩ .f32) (x3 x5 : FVec Ideal ⟨2, ![1, B]⟩ .f32)
    (r : Fin A) (j : Fin B) :
    maximumf
        (addf
          (addf (matmul (Cert.LibHR.plainDotDims A K B wf) none (truncf .bf16 x0 hlt) (truncf .bf16 x2 hlt)
                  (constant ⟨2, ![A, B]⟩ .f32 0x00000000#32))
            (broadcastTo ⟨2, ![A, B]⟩ x3 hb))
          (addf (matmul (Cert.LibHR.plainDotDims A K B wf) none (truncf .bf16 (mulf x0 x1) hlt) (truncf .bf16 x4 hlt)
                  (constant ⟨2, ![A, B]⟩ .f32 0x00000000#32))
            (broadcastTo ⟨2, ![A, B]⟩ x5 hb)))
        (broadcast ⟨2, ![A, B]⟩ (Scalar.ofBits (F := Ideal) .f32 0x00000000#32)) (ix2 r j)
      = layerEntry x0 x1 x2 (fun j => x3 (ix2 (0 : Fin 1) j)) x4 (fun j => x5 (ix2 (0 : Fin 1) j)) r j := by
  show max ((FloatOps.matmul (F := Ideal) (φ₁ := .bf16) (φ₂ := .bf16) (Cert.LibHR.plainDotDims A K B wf) none
                (truncf .bf16 x0 hlt) (truncf .bf16 x2 hlt) (constant (F := Ideal) ⟨2, ![A, B]⟩ .f32 0x00000000#32) (ix2 r j)
              + broadcastTo ⟨2, ![A, B]⟩ x3 hb (ix2 r j))
            + (FloatOps.matmul (F := Ideal) (φ₁ := .bf16) (φ₂ := .bf16) (Cert.LibHR.plainDotDims A K B wf) none
                (truncf .bf16 (mulf x0 x1) hlt) (truncf .bf16 x4 hlt) (constant (F := Ideal) ⟨2, ![A, B]⟩ .f32 0x00000000#32) (ix2 r j)
              + broadcastTo ⟨2, ![A, B]⟩ x5 hb (ix2 r j))) _ = _
  rw [Cert.LibHR.plainMatmul_zero_apply, Cert.LibHR.plainMatmul_zero_apply, rowBcast_apply, rowBcast_apply]
  rfl

/-- THE HOST'S LAYER AT AN ENTRY: the host's two products, each plus its bias vector broadcast to a row and down the
    rows, added, and the larger of that and a zero broadcast from a scalar. -/
theorem hostLayer_entry (A K B : Nat)
    (wf : DotDims.WF ⟨2, ![A, K]⟩ ⟨2, ![K, B]⟩ ⟨2, ![A, B]⟩ [1] [0] [0] [1] [] [])
    (h1 : (⟨1, ![B]⟩ : Shape).BroadcastsInDim ⟨2, ![1, B]⟩ ![1])
    (h2 : (⟨2, ![1, B]⟩ : Shape).BroadcastsInDim ⟨2, ![A, B]⟩ ![0, 1])
    (hz : (⟨0, ![]⟩ : Shape).BroadcastsInDim ⟨2, ![A, B]⟩ ![])
    (a x : FVec Ideal ⟨2, ![A, K]⟩ .f32) (w w' : FVec Ideal ⟨2, ![K, B]⟩ .f32) (b b' : FVec Ideal ⟨1, ![B]⟩ .f32)
    (r : Fin A) (j : Fin B) :
    maximumf
        (addf
          (addf (Host.dotGeneral (Cert.LibHR.plainDotDims A K B wf) none a w)
            (broadcastInDim ⟨2, ![A, B]⟩ ![0, 1] h2 (broadcastInDim ⟨2, ![1, B]⟩ ![1] h1 b)))
          (addf (Host.dotGeneral (Cert.LibHR.plainDotDims A K B wf) none (mulf a x) w')
            (broadcastInDim ⟨2, ![A, B]⟩ ![0, 1] h2 (broadcastInDim ⟨2, ![1, B]⟩ ![1] h1 b'))))
        (broadcastInDim ⟨2, ![A, B]⟩ ![] hz (constant (F := Ideal) ⟨0, ![]⟩ .f32 0x00000000#32)) (ix2 r j)
      = layerEntry a x w (fun j => b (ix1 j)) w' (fun j => b' (ix1 j)) r j := by
  show max ((Host.dotGeneral (F := Ideal) (φ₁ := .f32) (φ₂ := .f32) (Cert.LibHR.plainDotDims A K B wf) none a w (ix2 r j)
              + broadcastInDim ⟨2, ![A, B]⟩ ![0, 1] h2 (broadcastInDim ⟨2, ![1, B]⟩ ![1] h1 b) (ix2 r j))
            + (Host.dotGeneral (F := Ideal) (φ₁ := .f32) (φ₂ := .f32) (Cert.LibHR.plainDotDims A K B wf) none (mulf a x) w' (ix2 r j)
              + broadcastInDim ⟨2, ![A, B]⟩ ![0, 1] h2 (broadcastInDim ⟨2, ![1, B]⟩ ![1] h1 b') (ix2 r j)))
          (broadcastInDim ⟨2, ![A, B]⟩ ![] hz (constant (F := Ideal) ⟨0, ![]⟩ .f32 0x00000000#32) (ix2 r j)) = _
  rw [Cert.LibHR.plainDot_apply, Cert.LibHR.plainDot_apply, Cert.LibHR.bcastRow_apply, Cert.LibHR.bcastRow_apply,
    Cert.LibHR.bcastScalar_apply]
  rfl

end Cert.Inception

end
-- ==== Proof.Network.lean ====
/-
  The two-hop network as one function of its thirteen inputs.

  With `agg` the sparse aggregation over the edge lists (`agg rows cols vals feat` adds, into row `rows e`, the edge
  weight times row `cols e` of `feat`), the network is

      y₁  = layer (agg rows cols vals r) l  W₁ b₁ W₂ b₂        (the left branch of hop one)
      z₁  = layer (agg cols rows vals l) r  W₁ b₁ W₂ b₂        (the right branch: the transposed graph)
      out = layer (agg rows cols vals z₁) y₁ W₃ b₃ W₄ b₄       (the left branch of hop two),

  `l`, `r` the left and right node features. The aggregation enters as a parameter (one for 64 features a node, one
  for 256): the two programs compute it by the same host operations, and nothing below depends on what it is.
-/
import proofs.«100432_j88622355186375_1_alg».proof.Proof.InceptionLayer

noncomputable section

namespace Cert.Inception

open Idealize.ShloMosaic Idealize.ShloMosaic.ValueIdx

/-- The type of an aggregation over 480000 weighted edges of a feature matrix with `C` features for each of 30000 nodes. -/
abbrev Agg (C : Nat) : Type :=
  IVec ⟨1, ![480000]⟩ 32 → IVec ⟨1, ![480000]⟩ 32 → ((⟨1, ![480000]⟩ : Shape).Idx → EReal) →
    ((⟨2, ![30000, C]⟩ : Shape).Idx → EReal) → (⟨2, ![30000, C]⟩ : Shape).Idx → EReal

/-- The network's result from the left and right features, the edge lists and weights, and the four layers' weights
    and biases. -/
def net (agg64 : Agg 64) (agg256 : Agg 256)
    (l r : (⟨2, ![30000, 64]⟩ : Shape).Idx → EReal) (rows cols : IVec ⟨1, ![480000]⟩ 32)
    (vals : (⟨1, ![480000]⟩ : Shape).Idx → EReal)
    (w1 : (⟨2, ![64, 256]⟩ : Shape).Idx → EReal) (b1 : (⟨1, ![256]⟩ : Shape).Idx → EReal)
    (w2 : (⟨2, ![64, 256]⟩ : Shape).Idx → EReal) (b2 : (⟨1, ![256]⟩ : Shape).Idx → EReal)
    (w3 : (⟨2, ![256, 128]⟩ : Shape).Idx → EReal) (b3 : (⟨1, ![128]⟩ : Shape).Idx → EReal)
    (w4 : (⟨2, ![256, 128]⟩ : Shape).Idx → EReal) (b4 : (⟨1, ![128]⟩ : Shape).Idx → EReal) :
    (⟨2, ![30000, 128]⟩ : Shape).Idx → EReal :=
  layer
    (agg256 rows cols vals
      (layer (agg64 cols rows vals l) r w1 (fun j => b1 (ix1 j)) w2 (fun j => b2 (ix1 j))))
    (layer (agg64 rows cols vals r) l w1 (fun j => b1 (ix1 j)) w2 (fun j => b2 (ix1 j)))
    w3 (fun j => b3 (ix1 j)) w4 (fun j => b4 (ix1 j))

end Cert.Inception

end
-- ==== Proof.SpMM.lean ====
/-
  The sparse aggregation shared by both programs: for a graph given as edge lists `rows`, `cols` with edge weights
  `vals`, and a feature matrix `feat` with one row per node,

      out[rows e, :]  +=  vals e · feat[cols e, :]      over all edges e, from a zero matrix.

  Both programs compute it by the same straight line of host operations (a negative column index is first shifted by
  the number of nodes; the selected feature rows are gathered, scaled by the edge weight, and scatter-added by row
  index). The line is kept here as ONE function of its four inputs, so that a proof can equate two uses of it by
  equating their inputs, without ever looking inside.
-/
import Idealize.ShloMosaic.PureOps.Ideal

noncomputable section

namespace Cert.Inception

open Idealize.ShloMosaic

variable {F : FTy → Type} [FloatOps F]

/-- The aggregate of `feat` (30000 nodes, `C` features each) over 480000 weighted edges. The records `g`, `s` and the
    four layout facts are what each program prints for its own gather, scatter and broadcasts. -/
def spmm (C : Nat)
    (g : GatherDims ⟨2, ![30000, C]⟩ ⟨2, ![480000, 1]⟩ ⟨2, ![480000, C]⟩)
    (s : ScatterDims ⟨2, ![30000, C]⟩ ⟨2, ![480000, 1]⟩ ⟨2, ![480000, C]⟩)
    (hcol : (⟨1, ![480000]⟩ : Shape).BroadcastsInDim ⟨2, ![480000, 1]⟩ ![0])
    (hsc : (⟨0, ![]⟩ : Shape).BroadcastsInDim ⟨1, ![480000]⟩ ![])
    (hrow : (⟨2, ![480000, 1]⟩ : Shape).BroadcastsInDim ⟨2, ![480000, C]⟩ ![0, 1])
    (hz : (⟨0, ![]⟩ : Shape).BroadcastsInDim ⟨2, ![30000, C]⟩ ![])
    (rows cols : IVec ⟨1, ![480000]⟩ 32) (vals : FVec F ⟨1, ![480000]⟩ .f32) (feat : FVec F ⟨2, ![30000, C]⟩ .f32) :
    FVec F ⟨2, ![30000, C]⟩ .f32 :=
  Host.scatterAdd s (broadcastInDim ⟨2, ![30000, C]⟩ ![] hz (constant (F := F) ⟨0, ![]⟩ .f32 0x00000000#32))
    (broadcastInDim ⟨2, ![480000, 1]⟩ ![0] hcol rows)
    (mulf (broadcastInDim ⟨2, ![480000, C]⟩ ![0, 1] hrow (broadcastInDim ⟨2, ![480000, 1]⟩ ![0] hcol vals))
      (Host.gather g feat
        (broadcastInDim ⟨2, ![480000, 1]⟩ ![0] hcol
          (select (cmpi .slt cols (broadcastInDim ⟨1, ![480000]⟩ ![] hsc (constantI ⟨0, ![]⟩ 32 0#32)))
            (addi cols (broadcastInDim ⟨1, ![480000]⟩ ![] hsc (constantI ⟨0, ![]⟩ 32 30000#32))) cols))))

end Cert.Inception

end
-- ==== Proof.KernelEntry.lean ====
/-
  What each launch of the idealized kernel program finds in its operand arrays, in terms of the program's arguments.

  Between the launches the program runs stretches of host operations, and a launch changes only its own result
  array. So the contents at each boundary are read backwards: a buffer that a stretch does not write holds what it
  held before the stretch; a buffer that is no array of a launch, or is one of its inputs, holds what it held before
  the launch. In this way every argument is found unchanged wherever it is used, the two first-hop aggregates are the
  shared aggregation line of the arguments, and each bias row is its bias vector laid out as one row.
-/
import proofs.«100432_j88622355186375_1_alg».proof.Proof.Gen.KernelIdeal.Frame
import proofs.«100432_j88622355186375_1_alg».proof.Proof.Network
import proofs.«100432_j88622355186375_1_alg».proof.Proof.SpMM
import Idealize.ShloMosaic.Lib.StableHlo.Run
import Idealize.ShloMosaic.Lib.Pipeline.Value
import Idealize.ShloMosaic.Lib.ValueIdx

set_option maxRecDepth 16384

noncomputable section

namespace Cert.KernelIdeal.Net

open Idealize.ShloMosaic Idealize.ShloMosaic.TcCoe Idealize.ShloMosaic.ValueIdx Idealize.SL.Sem Idealize.ShloMosaic.StableHlo
open Cert.KernelIdeal Cert.KernelIdeal.Gen Cert.Inception

/-- The aggregation of a 64-feature matrix, with this program's records. -/
def agg64 : Agg 64 := fun rows cols vals feat =>
  spmm (F := Ideal) 64 gather_S30000x64_S480000x1_S480000x64_1_0_n_n_0_1_164 scatter_S30000x64_S480000x1_S480000x64_1_0_0_1
    Gen.bcast_S480000_S480000x1_0 Gen.bcast_S_S480000 Gen.bcast_S480000x1_S480000x64_0_1 Gen.bcast_S_S30000x64 rows cols vals feat

/-- The aggregation of a 256-feature matrix, with this program's records. -/
def agg256 : Agg 256 := fun rows cols vals feat =>
  spmm (F := Ideal) 256 gather_S30000x256_S480000x1_S480000x256_1_0_n_n_0_1_1256 scatter_S30000x256_S480000x1_S480000x256_1_0_0_1
    Gen.bcast_S480000_S480000x1_0 Gen.bcast_S_S480000 Gen.bcast_S480000x1_S480000x256_0_1 Gen.bcast_S_S30000x256 rows cols vals feat

/-- Closes `after ops V b = V b` for a literal stretch `ops` none of whose operations writes the buffer `b`. -/
macro "stretch_leaves " ops:ident b:ident : tactic =>
  `(tactic| exact StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The arguments, found unchanged where they are used

`argK_atL`: argument `K` at boundary `L` (1: the first launch's entry; 2: its exit; 3: the second launch's entry;
4: its exit; 5: the third launch's entry) holds what the program was launched with. -/

theorem arg0_at1 : W1 m ρ c (Proc.devRef .tc main_arg0) = m ((c : Thread nD τ).loc main_arg0) :=
  calc W1 m ρ c (Proc.devRef .tc main_arg0)
    _ = W0 m ρ c (Proc.devRef .tc main_arg0) := by stretch_leaves hostOps0 main_arg0

theorem arg5_at1 : W1 m ρ c (Proc.devRef .tc main_arg5) = m ((c : Thread nD τ).loc main_arg5) :=
  calc W1 m ρ c (Proc.devRef .tc main_arg5)
    _ = W0 m ρ c (Proc.devRef .tc main_arg5) := by stretch_leaves hostOps0 main_arg5

theorem arg7_at1 : W1 m ρ c (Proc.devRef .tc main_arg7) = m ((c : Thread nD τ).loc main_arg7) :=
  calc W1 m ρ c (Proc.devRef .tc main_arg7)
    _ = W0 m ρ c (Proc.devRef .tc main_arg7) := by stretch_leaves hostOps0 main_arg7

theorem arg6_at2 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by stretch_leaves hostOps0 main_arg6

theorem arg8_at2 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by stretch_leaves hostOps0 main_arg8

theorem arg1_at3 : W3 m ρ c (Proc.devRef .tc main_arg1) = m ((c : Thread nD τ).loc main_arg1) :=
  calc W3 m ρ c (Proc.devRef .tc main_arg1)
    _ = W2 m ρ c (Proc.devRef .tc main_arg1) := by stretch_leaves hostOps1 main_arg1
    _ = W1 m ρ c (Proc.devRef .tc main_arg1) := W2_of_ne m ρ c main_arg1 (by decide)
    _ = W0 m ρ c (Proc.devRef .tc main_arg1) := by stretch_leaves hostOps0 main_arg1

theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_leaves hostOps1 main_arg2
    _ = W1 m ρ c (Proc.devRef .tc main_arg2) := W2_of_ne m ρ c main_arg2 (by decide)
    _ = W0 m ρ c (Proc.devRef .tc main_arg2) := by stretch_leaves hostOps0 main_arg2

theorem arg3_at4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_leaves hostOps1 main_arg3
    _ = W1 m ρ c (Proc.devRef .tc main_arg3) := W2_of_ne m ρ c main_arg3 (by decide)
    _ = W0 m ρ c (Proc.devRef .tc main_arg3) := by stretch_leaves hostOps0 main_arg3

theorem arg4_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_leaves hostOps1 main_arg4
    _ = W1 m ρ c (Proc.devRef .tc main_arg4) := W2_of_ne m ρ c main_arg4 (by decide)
    _ = W0 m ρ c (Proc.devRef .tc main_arg4) := by stretch_leaves hostOps0 main_arg4

theorem arg10_at4 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_leaves hostOps1 main_arg10
    _ = W1 m ρ c (Proc.devRef .tc main_arg10) := W2_of_ne m ρ c main_arg10 (by decide)
    _ = W0 m ρ c (Proc.devRef .tc main_arg10) := by stretch_leaves hostOps0 main_arg10

theorem arg12_at4 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by stretch_leaves hostOps1 main_arg12
    _ = W1 m ρ c (Proc.devRef .tc main_arg12) := W2_of_ne m ρ c main_arg12 (by decide)
    _ = W0 m ρ c (Proc.devRef .tc main_arg12) := by stretch_leaves hostOps0 main_arg12

theorem arg9_at5 : W5 m ρ c (Proc.devRef .tc main_arg9) = m ((c : Thread nD τ).loc main_arg9) :=
  calc W5 m ρ c (Proc.devRef .tc main_arg9)
    _ = W4 m ρ c (Proc.devRef .tc main_arg9) := by stretch_leaves hostOps2 main_arg9
    _ = W3 m ρ c (Proc.devRef .tc main_arg9) := W4_of_ne m ρ c main_arg9 (by decide)
    _ = W2 m ρ c (Proc.devRef .tc main_arg9) := by stretch_leaves hostOps1 main_arg9
    _ = W1 m ρ c (Proc.devRef .tc main_arg9) := W2_of_ne m ρ c main_arg9 (by decide)
    _ = W0 m ρ c (Proc.devRef .tc main_arg9) := by stretch_leaves hostOps0 main_arg9

theorem arg11_at5 : W5 m ρ c (Proc.devRef .tc main_arg11) = m ((c : Thread nD τ).loc main_arg11) :=
  calc W5 m ρ c (Proc.devRef .tc main_arg11)
    _ = W4 m ρ c (Proc.devRef .tc main_arg11) := by stretch_leaves hostOps2 main_arg11
    _ = W3 m ρ c (Proc.devRef .tc main_arg11) := W4_of_ne m ρ c main_arg11 (by decide)
    _ = W2 m ρ c (Proc.devRef .tc main_arg11) := by stretch_leaves hostOps1 main_arg11
    _ = W1 m ρ c (Proc.devRef .tc main_arg11) := W2_of_ne m ρ c main_arg11 (by decide)
    _ = W0 m ρ c (Proc.devRef .tc main_arg11) := by stretch_leaves hostOps0 main_arg11

/-- The first layer's first weight matrix is an input of the first launch, which leaves it as found. -/
theorem arg5_at3 : W3 m ρ c (Proc.devRef .tc main_arg5) = m ((c : Thread nD τ).loc main_arg5) :=
  calc W3 m ρ c (Proc.devRef .tc main_arg5)
    _ = W2 m ρ c (Proc.devRef .tc main_arg5) := by stretch_leaves hostOps1 main_arg5
    _ = W1 m ρ c (Proc.devRef .tc main_arg5) := (W2_arr m ρ c 2).trans (((dat0 (V1 m ρ) c).arrAt_in 2 rfl _).trans (A_eq0 (V1 m ρ) c 2))
    _ = _ := arg5_at1 m ρ c

/-- The first layer's second weight matrix is an input of the first launch, which leaves it as found. -/
theorem arg7_at3 : W3 m ρ c (Proc.devRef .tc main_arg7) = m ((c : Thread nD τ).loc main_arg7) :=
  calc W3 m ρ c (Proc.devRef .tc main_arg7)
    _ = W2 m ρ c (Proc.devRef .tc main_arg7) := by stretch_leaves hostOps1 main_arg7
    _ = W1 m ρ c (Proc.devRef .tc main_arg7) := (W2_arr m ρ c 4).trans (((dat0 (V1 m ρ) c).arrAt_in 4 rfl _).trans (A_eq0 (V1 m ρ) c 4))
    _ = _ := arg7_at1 m ρ c

/-! ## The first stretch: the two first-hop aggregates and the first layer's bias rows -/

/-- The left aggregate is the aggregation line of the edge lists, the edge weights and the right features. -/
theorem left_aggregate : V1 m ρ c main_v12 = agg64 (m ((c : Thread nD τ).loc main_arg2)) (m ((c : Thread nD τ).loc main_arg3)) (m ((c : Thread nD τ).loc main_arg4)) (m ((c : Thread nD τ).loc main_arg1)) := by
  show StableHlo.after hostOps0 (W0 m ρ c) (Proc.devRef .tc main_v12) = _
  after_results_simp
  rfl

/-- The right aggregate, at the first launch's entry: the line over the transposed graph and the left features. -/
theorem right_aggregate_at1 : W1 m ρ c (Proc.devRef .tc main_v25) = agg64 (m ((c : Thread nD τ).loc main_arg3)) (m ((c : Thread nD τ).loc main_arg2)) (m ((c : Thread nD τ).loc main_arg4)) (m ((c : Thread nD τ).loc main_arg0)) := by
  show StableHlo.after hostOps0 (W0 m ρ c) (Proc.devRef .tc main_v25) = _
  after_results_simp
  rfl

/-- It is still there at the second launch's entry: the first launch and the second stretch do not touch it. -/
theorem right_aggregate : V3 m ρ c main_v25 = agg64 (m ((c : Thread nD τ).loc main_arg3)) (m ((c : Thread nD τ).loc main_arg2)) (m ((c : Thread nD τ).loc main_arg4)) (m ((c : Thread nD τ).loc main_arg0)) :=
  calc W3 m ρ c (Proc.devRef .tc main_v25)
    _ = W2 m ρ c (Proc.devRef .tc main_v25) := by stretch_leaves hostOps1 main_v25
    _ = W1 m ρ c (Proc.devRef .tc main_v25) := W2_of_ne m ρ c main_v25 (by decide)
    _ = _ := right_aggregate_at1 m ρ c

/-- A bias vector laid out as one row reads, at `(0, j)`, the vector's entry `j`. -/
theorem row_of_vector {B : Nat} (x : (⟨1, ![B]⟩ : Shape).Idx → EReal) (h : (⟨1, ![B]⟩ : Shape).ShapeCasts ⟨2, ![1, B]⟩) (j : Fin B) :
    shapeCast ⟨2, ![1, B]⟩ x h (ix2 (0 : Fin 1) j) = x (ix1 j) :=
  shapeCast_apply x h _ (ix1 j) (by rw [Shape.rowMajor_val_two, Shape.rowMajor_val_one]; show j.val = 0 * B + j.val; omega)

/-- The first launch's first bias row. -/
theorem bias1_row_at1 (j : Fin 256) : V1 m ρ c main_v26 (ix2 (0 : Fin 1) j) = m ((c : Thread nD τ).loc main_arg6) (ix1 j) := by
  show StableHlo.after hostOps0 (W0 m ρ c) (Proc.devRef .tc main_v26) (ix2 (0 : Fin 1) j) = _
  dsimp only [hostOps0]
  after_results
  exact row_of_vector (B := 256) (W0 m ρ c (Proc.devRef .tc main_arg6)) _ j

/-- The first launch's second bias row. -/
theorem bias2_row_at1 (j : Fin 256) : V1 m ρ c main_v27 (ix2 (0 : Fin 1) j) = m ((c : Thread nD τ).loc main_arg8) (ix1 j) := by
  show StableHlo.after hostOps0 (W0 m ρ c) (Proc.devRef .tc main_v27) (ix2 (0 : Fin 1) j) = _
  dsimp only [hostOps0]
  after_results
  exact row_of_vector (B := 256) (W0 m ρ c (Proc.devRef .tc main_arg8)) _ j

/-! ## The second stretch: the same two bias rows, laid out again -/

/-- The second launch's first bias row. -/
theorem bias1_row_at3 (j : Fin 256) : V3 m ρ c main_v29 (ix2 (0 : Fin 1) j) = m ((c : Thread nD τ).loc main_arg6) (ix1 j) := by
  show StableHlo.after hostOps1 (W2 m ρ c) (Proc.devRef .tc main_v29) (ix2 (0 : Fin 1) j) = _
  dsimp only [hostOps1]
  after_results
  exact (row_of_vector (B := 256) (W2 m ρ c (Proc.devRef .tc main_arg6)) _ j).trans (congrFun (arg6_at2 m ρ c) (ix1 j))

/-- The second launch's second bias row. -/
theorem bias2_row_at3 (j : Fin 256) : V3 m ρ c main_v30 (ix2 (0 : Fin 1) j) = m ((c : Thread nD τ).loc main_arg8) (ix1 j) := by
  show StableHlo.after hostOps1 (W2 m ρ c) (Proc.devRef .tc main_v30) (ix2 (0 : Fin 1) j) = _
  dsimp only [hostOps1]
  after_results
  exact (row_of_vector (B := 256) (W2 m ρ c (Proc.devRef .tc main_arg8)) _ j).trans (congrFun (arg8_at2 m ρ c) (ix1 j))

/-! ## The third stretch: the second-hop aggregate and the second layer's bias rows -/

/-- The second-hop aggregate is the aggregation line of the edge lists, the edge weights and the second launch's result. -/
theorem hop2_aggregate : V5 m ρ c main_v44
    = agg256 (m ((c : Thread nD τ).loc main_arg2)) (m ((c : Thread nD τ).loc main_arg3)) (m ((c : Thread nD τ).loc main_arg4)) (W4 m ρ c (Proc.devRef .tc main_v31)) := by
  have e : V5 m ρ c main_v44 = agg256 (W4 m ρ c (Proc.devRef .tc main_arg2)) (W4 m ρ c (Proc.devRef .tc main_arg3)) (W4 m ρ c (Proc.devRef .tc main_arg4)) (W4 m ρ c (Proc.devRef .tc main_v31)) := by
    show StableHlo.after hostOps2 (W4 m ρ c) (Proc.devRef .tc main_v44) = _
    after_results_simp
    rfl
  rw [e, arg2_at4 m ρ c, arg3_at4 m ρ c, arg4_at4 m ρ c]

/-- The third launch's first bias row. -/
theorem bias3_row_at5 (j : Fin 128) : V5 m ρ c main_v45 (ix2 (0 : Fin 1) j) = m ((c : Thread nD τ).loc main_arg10) (ix1 j) := by
  show StableHlo.after hostOps2 (W4 m ρ c) (Proc.devRef .tc main_v45) (ix2 (0 : Fin 1) j) = _
  dsimp only [hostOps2]
  after_results
  exact (row_of_vector (B := 128) (W4 m ρ c (Proc.devRef .tc main_arg10)) _ j).trans (congrFun (arg10_at4 m ρ c) (ix1 j))

/-- The third launch's second bias row. -/
theorem bias4_row_at5 (j : Fin 128) : V5 m ρ c main_v46 (ix2 (0 : Fin 1) j) = m ((c : Thread nD τ).loc main_arg12) (ix1 j) := by
  show StableHlo.after hostOps2 (W4 m ρ c) (Proc.devRef .tc main_v46) (ix2 (0 : Fin 1) j) = _
  dsimp only [hostOps2]
  after_results
  exact (row_of_vector (B := 128) (W4 m ρ c (Proc.devRef .tc main_arg12)) _ j).trans (congrFun (arg12_at4 m ρ c) (ix1 j))

/-- The first launch's result is still in its buffer at the third launch's entry. -/
theorem first_result_at5 : V5 m ρ c main_v28 = W2 m ρ c (Proc.devRef .tc main_v28) :=
  calc W5 m ρ c (Proc.devRef .tc main_v28)
    _ = W4 m ρ c (Proc.devRef .tc main_v28) := by stretch_leaves hostOps2 main_v28
    _ = W3 m ρ c (Proc.devRef .tc main_v28) := W4_of_ne m ρ c main_v28 (by decide)
    _ = W2 m ρ c (Proc.devRef .tc main_v28) := by stretch_leaves hostOps1 main_v28

end Cert.KernelIdeal.Net

end
-- ==== Proof.Launch0.lean ====
/-
  Launch 0 of the layer's kernel: what its result array holds when the launch is over.

  The launch runs the body at ten grid points. Point `t` is handed rows `3000·t … 3000·t + 2999` of the aggregate and of
  the feature matrix, the two weight matrices and the two one-row bias matrices whole, and writes back rows
  `3000·t … 3000·t + 2999` of the result. An entry of the layer in row `r` depends on row `r` of the aggregate and of
  the features only, so what point `t` writes back is exactly rows `3000·t …` of the layer of the WHOLE arrays; the
  ten row blocks tile the 30000 rows, hence the result array ends holding the layer of the arrays the launch found
  (the first aggregate and the left features, the first layer's weights and biases).
-/
import proofs.«100432_j88622355186375_1_alg».proof.Proof.Gen.KernelIdeal.Frame
import proofs.«100432_j88622355186375_1_alg».proof.Proof.InceptionLayer
import Idealize.ShloMosaic.Lib.Pipeline.Value
import Idealize.ShloMosaic.Lib.ValueIdx

set_option maxRecDepth 16384

noncomputable section

namespace Cert.KernelIdeal.Launch0

open Idealize.ShloMosaic Idealize.ShloMosaic.TcCoe Idealize.ShloMosaic.ValueIdx Idealize.SL.Sem
open Idealize.ShloMosaic.Pipeline (Dat)
open Cert.KernelIdeal Cert.KernelIdeal.Gen Cert.Inception

-- the buffer contents the launch is entered with
variable (V : (c : Dev nD) → (b : Ref sig .tc) → Buf (Elt Ideal) ((c : Thread nD τ).loc b))

theorem origin_zero : (![0, 0] : Fin 2 → Nat) = fun _ => 0 := funext fun a => by fin_cases a <;> rfl

/-- The body's stored value at `(r, j)` is the layer's entry of the loaded blocks. -/
theorem stored_entry (x0 x1 : Vec Ideal S3000x64 .f32) (x2 : Vec Ideal S64x256 .f32) (x3 : Vec Ideal S1x256 .f32)
    (x4 : Vec Ideal S64x256 .f32) (x5 : Vec Ideal S1x256 .f32) (r : Fin 3000) (j : Fin 256) :
    k0_pay1 (F := Ideal) x0 x1 x2 x3 x4 x5 (ix2 r j)
      = layerEntry x0 x1 x2 (fun j => x3 (ix2 (0 : Fin 1) j)) x4 (fun j => x5 (ix2 (0 : Fin 1) j)) r j := by
  unfold k0_pay1
  simp only [shapeCast_self]
  exact body_entry 3000 64 256 _ _ _ x0 x1 x2 x4 x3 x5 r j

/-- The windows' block indices at point `t`, decided over the ten points: the aggregate, the features and the result
    move with the point along the rows; the weights and biases stay at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 10 :=
  (by decide +kernel : ∀ t : Fin grid0.N, _)

/-- Row `p` of point `t`'s block is row `3000·t + p` of the array. -/
def rowOf (t : Fin cfg0.N) (p : Fin 3000) : Fin 30000 :=
  ⟨t.val * 3000 + p.val, by have := (block_indices t).2.2.2.2.2.2.2.2.2.2.2.2.2.2; have := p.isLt; omega⟩

/-- The aggregate's block at point `t`, read at `(p, k)`. -/
theorem block0_apply (c : Dev nD) (t : Fin cfg0.N) (p : Fin 3000) (k : Fin 64) :
    iblk0 V c 0 t (ix2 p k) = V c main_v12 (ix2 (rowOf t p) k) := by
  obtain ⟨e0, e1, -⟩ := block_indices t
  show V c main_v12 (((cfg0.win 0).blk t).view.emb (ix2 p k)) = _
  refine congrArg (V c main_v12) ?_
  funext a; apply Fin.ext
  match a with
  | ⟨0, _⟩ => show win0_0.index t (0 : Fin 2) * 3000 + 1 * p.val = t.val * 3000 + p.val; omega
  | ⟨1, _⟩ => show win0_0.index t (1 : Fin 2) * 64 + 1 * k.val = k.val; omega

/-- The features' block at point `t`, read at `(p, k)`. -/
theorem block1_apply (c : Dev nD) (t : Fin cfg0.N) (p : Fin 3000) (k : Fin 64) :
    iblk0 V c 1 t (ix2 p k) = V c main_arg0 (ix2 (rowOf t p) k) := by
  obtain ⟨-, -, e0, e1, -⟩ := block_indices t
  show V c main_arg0 (((cfg0.win 1).blk t).view.emb (ix2 p k)) = _
  refine congrArg (V c main_arg0) ?_
  funext a; apply Fin.ext
  match a with
  | ⟨0, _⟩ => show win0_1.index t (0 : Fin 2) * 3000 + 1 * p.val = t.val * 3000 + p.val; omega
  | ⟨1, _⟩ => show win0_1.index t (1 : Fin 2) * 64 + 1 * k.val = k.val; omega

/-- The first weight matrix's block at any point is the whole matrix. -/
theorem block2_apply (c : Dev nD) (t : Fin cfg0.N) (k : Fin 64) (j : Fin 256) :
    iblk0 V c 2 t (ix2 k j) = V c main_arg5 (ix2 k j) := by
  obtain ⟨-, -, -, -, e0, e1, -⟩ := block_indices t
  show V c main_arg5 (((cfg0.win 2).blk t).view.emb (ix2 k j)) = _
  refine congrArg (V c main_arg5) ?_
  funext a; apply Fin.ext
  match a with
  | ⟨0, _⟩ => show win0_2.index t (0 : Fin 2) * 64 + 1 * k.val = k.val; omega
  | ⟨1, _⟩ => show win0_2.index t (1 : Fin 2) * 256 + 1 * j.val = j.val; omega

/-- The first bias row's block at any point is the whole row. -/
theorem block3_apply (c : Dev nD) (t : Fin cfg0.N) (j : Fin 256) :
    iblk0 V c 3 t (ix2 (0 : Fin 1) j) = V c main_v26 (ix2 (0 : Fin 1) j) := by
  obtain ⟨-, -, -, -, -, -, e0, e1, -⟩ := block_indices t
  show V c main_v26 (((cfg0.win 3).blk t).view.emb (ix2 (0 : Fin 1) j)) = _
  refine congrArg (V c main_v26) ?_
  funext a; apply Fin.ext
  match a with
  | ⟨0, _⟩ => show win0_3.index t (0 : Fin 2) * 1 + 1 * 0 = 0; omega
  | ⟨1, _⟩ => show win0_3.index t (1 : Fin 2) * 256 + 1 * j.val = j.val; omega

/-- The second weight matrix's block at any point is the whole matrix. -/
theorem block4_apply (c : Dev nD) (t : Fin cfg0.N) (k : Fin 64) (j : Fin 256) :
    iblk0 V c 4 t (ix2 k j) = V c main_arg7 (ix2 k j) := by
  obtain ⟨-, -, -, -, -, -, -, -, e0, e1, -⟩ := block_indices t
  show V c main_arg7 (((cfg0.win 4).blk t).view.emb (ix2 k j)) = _
  refine congrArg (V c main_arg7) ?_
  funext a; apply Fin.ext
  match a with
  | ⟨0, _⟩ => show win0_4.index t (0 : Fin 2) * 64 + 1 * k.val = k.val; omega
  | ⟨1, _⟩ => show win0_4.index t (1 : Fin 2) * 256 + 1 * j.val = j.val; omega

/-- The second bias row's block at any point is the whole row. -/
theorem block5_apply (c : Dev nD) (t : Fin cfg0.N) (j : Fin 256) :
    iblk0 V c 5 t (ix2 (0 : Fin 1) j) = V c main_v27 (ix2 (0 : Fin 1) j) := by
  obtain ⟨-, -, -, -, -, -, -, -, -, -, e0, e1, -⟩ := block_indices t
  show V c main_v27 (((cfg0.win 5).blk t).view.emb (ix2 (0 : Fin 1) j)) = _
  refine congrArg (V c main_v27) ?_
  funext a; apply Fin.ext
  match a with
  | ⟨0, _⟩ => show win0_5.index t (0 : Fin 2) * 1 + 1 * 0 = 0; omega
  | ⟨1, _⟩ => show win0_5.index t (1 : Fin 2) * 256 + 1 * j.val = j.val; omega

/-- The layer of the whole arrays the launch found. -/
def whole (c : Dev nD) : S30000x256.Idx → EReal :=
  layer (A := 30000) (K := 64) (B := 256) (V c main_v12) (V c main_arg0) (V c main_arg5) (fun j => V c main_v26 (ix2 (0 : Fin 1) j))
    (V c main_arg7) (fun j => V c main_v27 (ix2 (0 : Fin 1) j))

/-- WHAT POINT `t` WRITES BACK is block `t` of the layer of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin_zero]
  simp only [View.ld_unit_zero (S := S3000x64) origin_zero, View.ld_unit_zero (S := S64x256) origin_zero,
    View.ld_unit_zero (S := S1x256) origin_zero]
  funext y
  obtain ⟨p, q, rfl⟩ : ∃ (p : Fin 3000) (q : Fin 256), y = ix2 p q := ⟨y 0, y 1, eq_ix2 y⟩
  obtain ⟨-, -, -, -, -, -, -, -, -, -, -, -, e0, e1, -⟩ := block_indices t
  have hemb : ((cfg0.win 6).blk t).view.emb (ix2 p q) = ix2 (rowOf t p) q := by
    funext a; apply Fin.ext
    match a with
    | ⟨0, _⟩ => show win0_6.index t (0 : Fin 2) * 3000 + 1 * p.val = t.val * 3000 + p.val; omega
    | ⟨1, _⟩ => show win0_6.index t (1 : Fin 2) * 256 + 1 * q.val = q.val; omega
  show k0_pay1 (F := Ideal) (iblk0 V c 0 t) (iblk0 V c 1 t) (iblk0 V c 2 t) (iblk0 V c 3 t) (iblk0 V c 4 t) (iblk0 V c 5 t) (ix2 p q)
      = whole V c (((cfg0.win 6).blk t).view.emb (ix2 p q))
  rw [hemb]
  refine (stored_entry (iblk0 V c 0 t) (iblk0 V c 1 t) (iblk0 V c 2 t) (iblk0 V c 3 t) (iblk0 V c 4 t) (iblk0 V c 5 t) p q).trans ?_
  unfold whole
  rw [layer_apply]
  exact layerEntry_congr _ _ _ _ _ _ _ _ _ _ _ _ p (rowOf t p) q
    (fun k => block0_apply V c t p k) (fun k => block1_apply V c t p k)
    (fun k => block2_apply V c t k q) (block3_apply V c t q)
    (fun k => block4_apply V c t k q) (block5_apply V c t q)

/-- An index of the result array is in point `t`'s block iff each coordinate is in the block's range on its axis. -/
theorem mem_block (t : Fin cfg0.N) (i : S30000x256.Idx) :
    i ∈ ((cfg0.win 6).blk t).view.set ↔ ∀ a : Fin 2, win0_6.index t a * S3000x256.size a ≤ (i a).val ∧ (i a).val < win0_6.index t a * S3000x256.size a + S3000x256.size a := by
  show i ∈ ((View.whole main_v28).slice (win0_6.rect t)).set ↔ _
  rw [View.set_slice_whole, Rect.mem_set_unit]
  exact Iff.rfl

/-- The ten row blocks tile the array: row `r` lies in the block of point `r / 3000`. -/
theorem covered (i : S30000x256.Idx) :
    ∃ t : Fin cfg0.N, (cfg0.win 6).flush t = true ∧ i ∈ ((cfg0.win 6).blk t).view.set := by
  have hi0 : (i 0).val < 30000 := (i 0).isLt
  have hi1 : (i 1).val < 256 := (i 1).isLt
  obtain ⟨t, ht⟩ : ∃ t : Fin cfg0.N, t.val = (i 0).val / 3000 :=
    ⟨⟨(i 0).val / 3000, by show (i 0).val / 3000 < grid0.N; rw [N_0]; omega⟩, rfl⟩
  obtain ⟨-, -, -, -, -, -, -, -, -, -, -, -, e0, e1, -⟩ := block_indices t
  refine ⟨t, flush0_6 t, ?_⟩
  rw [mem_block]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 256 ≤ (i 1).val ∧ (i 1).val < win0_6.index t (1 : Fin 2) * 256 + 256; omega

/-- THE RESULT ARRAY when the launch is over: the layer of the whole arrays it found. -/
theorem result (c : Dev nD) : (dat0 V c).arrAt 6 cfg0.N = whole V c :=
  (dat0 V c).arrAt_eq_of_cover 6 (whole V c) (fun t _ => flushed_eq V c t) (covered)

end Cert.KernelIdeal.Launch0

end
-- ==== Proof.Launch1.lean ====
/-
  Launch 1 of the layer's kernel: what its result array holds when the launch is over.

  The launch runs the body at ten grid points. Point `t` is handed rows `3000·t … 3000·t + 2999` of the aggregate and of
  the feature matrix, the two weight matrices and the two one-row bias matrices whole, and writes back rows
  `3000·t … 3000·t + 2999` of the result. An entry of the layer in row `r` depends on row `r` of the aggregate and of
  the features only, so what point `t` writes back is exactly rows `3000·t …` of the layer of the WHOLE arrays; the
  ten row blocks tile the 30000 rows, hence the result array ends holding the layer of the arrays the launch found
  (the second aggregate and the right features, the first layer's weights and biases).
-/
import proofs.«100432_j88622355186375_1_alg».proof.Proof.Gen.KernelIdeal.Frame
import proofs.«100432_j88622355186375_1_alg».proof.Proof.InceptionLayer
import Idealize.ShloMosaic.Lib.Pipeline.Value
import Idealize.ShloMosaic.Lib.ValueIdx

set_option maxRecDepth 16384

noncomputable section

namespace Cert.KernelIdeal.Launch1

open Idealize.ShloMosaic Idealize.ShloMosaic.TcCoe Idealize.ShloMosaic.ValueIdx Idealize.SL.Sem
open Idealize.ShloMosaic.Pipeline (Dat)
open Cert.KernelIdeal Cert.KernelIdeal.Gen Cert.Inception

-- the buffer contents the launch is entered with
variable (V : (c : Dev nD) → (b : Ref sig .tc) → Buf (Elt Ideal) ((c : Thread nD τ).loc b))

theorem origin_zero : (![0, 0] : Fin 2 → Nat) = fun _ => 0 := funext fun a => by fin_cases a <;> rfl

/-- The body's stored value at `(r, j)` is the layer's entry of the loaded blocks. -/
theorem stored_entry (x0 x1 : Vec Ideal S3000x64 .f32) (x2 : Vec Ideal S64x256 .f32) (x3 : Vec Ideal S1x256 .f32)
    (x4 : Vec Ideal S64x256 .f32) (x5 : Vec Ideal S1x256 .f32) (r : Fin 3000) (j : Fin 256) :
    k1_pay1 (F := Ideal) x0 x1 x2 x3 x4 x5 (ix2 r j)
      = layerEntry x0 x1 x2 (fun j => x3 (ix2 (0 : Fin 1) j)) x4 (fun j => x5 (ix2 (0 : Fin 1) j)) r j := by
  unfold k1_pay1
  simp only [shapeCast_self]
  exact body_entry 3000 64 256 _ _ _ x0 x1 x2 x4 x3 x5 r j

/-- The windows' block indices at point `t`, decided over the ten points: the aggregate, the features and the result
    move with the point along the rows; the weights and biases stay at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

/-- Row `p` of point `t`'s block is row `3000·t + p` of the array. -/
def rowOf (t : Fin cfg1.N) (p : Fin 3000) : Fin 30000 :=
  ⟨t.val * 3000 + p.val, by have := (block_indices t).2.2.2.2.2.2.2.2.2.2.2.2.2.2; have := p.isLt; omega⟩

/-- The aggregate's block at point `t`, read at `(p, k)`. -/
theorem block0_apply (c : Dev nD) (t : Fin cfg1.N) (p : Fin 3000) (k : Fin 64) :
    iblk1 V c 0 t (ix2 p k) = V c main_v25 (ix2 (rowOf t p) k) := by
  obtain ⟨e0, e1, -⟩ := block_indices t
  show V c main_v25 (((cfg1.win 0).blk t).view.emb (ix2 p k)) = _
  refine congrArg (V c main_v25) ?_
  funext a; apply Fin.ext
  match a with
  | ⟨0, _⟩ => show win1_0.index t (0 : Fin 2) * 3000 + 1 * p.val = t.val * 3000 + p.val; omega
  | ⟨1, _⟩ => show win1_0.index t (1 : Fin 2) * 64 + 1 * k.val = k.val; omega

/-- The features' block at point `t`, read at `(p, k)`. -/
theorem block1_apply (c : Dev nD) (t : Fin cfg1.N) (p : Fin 3000) (k : Fin 64) :
    iblk1 V c 1 t (ix2 p k) = V c main_arg1 (ix2 (rowOf t p) k) := by
  obtain ⟨-, -, e0, e1, -⟩ := block_indices t
  show V c main_arg1 (((cfg1.win 1).blk t).view.emb (ix2 p k)) = _
  refine congrArg (V c main_arg1) ?_
  funext a; apply Fin.ext
  match a with
  | ⟨0, _⟩ => show win1_1.index t (0 : Fin 2) * 3000 + 1 * p.val = t.val * 3000 + p.val; omega
  | ⟨1, _⟩ => show win1_1.index t (1 : Fin 2) * 64 + 1 * k.val = k.val; omega

/-- The first weight matrix's block at any point is the whole matrix. -/
theorem block2_apply (c : Dev nD) (t : Fin cfg1.N) (k : Fin 64) (j : Fin 256) :
    iblk1 V c 2 t (ix2 k j) = V c main_arg5 (ix2 k j) := by
  obtain ⟨-, -, -, -, e0, e1, -⟩ := block_indices t
  show V c main_arg5 (((cfg1.win 2).blk t).view.emb (ix2 k j)) = _
  refine congrArg (V c main_arg5) ?_
  funext a; apply Fin.ext
  match a with
  | ⟨0, _⟩ => show win1_2.index t (0 : Fin 2) * 64 + 1 * k.val = k.val; omega
  | ⟨1, _⟩ => show win1_2.index t (1 : Fin 2) * 256 + 1 * j.val = j.val; omega

/-- The first bias row's block at any point is the whole row. -/
theorem block3_apply (c : Dev nD) (t : Fin cfg1.N) (j : Fin 256) :
    iblk1 V c 3 t (ix2 (0 : Fin 1) j) = V c main_v29 (ix2 (0 : Fin 1) j) := by
  obtain ⟨-, -, -, -, -, -, e0, e1, -⟩ := block_indices t
  show V c main_v29 (((cfg1.win 3).blk t).view.emb (ix2 (0 : Fin 1) j)) = _
  refine congrArg (V c main_v29) ?_
  funext a; apply Fin.ext
  match a with
  | ⟨0, _⟩ => show win1_3.index t (0 : Fin 2) * 1 + 1 * 0 = 0; omega
  | ⟨1, _⟩ => show win1_3.index t (1 : Fin 2) * 256 + 1 * j.val = j.val; omega

/-- The second weight matrix's block at any point is the whole matrix. -/
theorem block4_apply (c : Dev nD) (t : Fin cfg1.N) (k : Fin 64) (j : Fin 256) :
    iblk1 V c 4 t (ix2 k j) = V c main_arg7 (ix2 k j) := by
  obtain ⟨-, -, -, -, -, -, -, -, e0, e1, -⟩ := block_indices t
  show V c main_arg7 (((cfg1.win 4).blk t).view.emb (ix2 k j)) = _
  refine congrArg (V c main_arg7) ?_
  funext a; apply Fin.ext
  match a with
  | ⟨0, _⟩ => show win1_4.index t (0 : Fin 2) * 64 + 1 * k.val = k.val; omega
  | ⟨1, _⟩ => show win1_4.index t (1 : Fin 2) * 256 + 1 * j.val = j.val; omega

/-- The second bias row's block at any point is the whole row. -/
theorem block5_apply (c : Dev nD) (t : Fin cfg1.N) (j : Fin 256) :
    iblk1 V c 5 t (ix2 (0 : Fin 1) j) = V c main_v30 (ix2 (0 : Fin 1) j) := by
  obtain ⟨-, -, -, -, -, -, -, -, -, -, e0, e1, -⟩ := block_indices t
  show V c main_v30 (((cfg1.win 5).blk t).view.emb (ix2 (0 : Fin 1) j)) = _
  refine congrArg (V c main_v30) ?_
  funext a; apply Fin.ext
  match a with
  | ⟨0, _⟩ => show win1_5.index t (0 : Fin 2) * 1 + 1 * 0 = 0; omega
  | ⟨1, _⟩ => show win1_5.index t (1 : Fin 2) * 256 + 1 * j.val = j.val; omega

/-- The layer of the whole arrays the launch found. -/
def whole (c : Dev nD) : S30000x256.Idx → EReal :=
  layer (A := 30000) (K := 64) (B := 256) (V c main_v25) (V c main_arg1) (V c main_arg5) (fun j => V c main_v29 (ix2 (0 : Fin 1) j))
    (V c main_arg7) (fun j => V c main_v30 (ix2 (0 : Fin 1) j))

/-- WHAT POINT `t` WRITES BACK is block `t` of the layer of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin_zero]
  simp only [View.ld_unit_zero (S := S3000x64) origin_zero, View.ld_unit_zero (S := S64x256) origin_zero,
    View.ld_unit_zero (S := S1x256) origin_zero]
  funext y
  obtain ⟨p, q, rfl⟩ : ∃ (p : Fin 3000) (q : Fin 256), y = ix2 p q := ⟨y 0, y 1, eq_ix2 y⟩
  obtain ⟨-, -, -, -, -, -, -, -, -, -, -, -, e0, e1, -⟩ := block_indices t
  have hemb : ((cfg1.win 6).blk t).view.emb (ix2 p q) = ix2 (rowOf t p) q := by
    funext a; apply Fin.ext
    match a with
    | ⟨0, _⟩ => show win1_6.index t (0 : Fin 2) * 3000 + 1 * p.val = t.val * 3000 + p.val; omega
    | ⟨1, _⟩ => show win1_6.index t (1 : Fin 2) * 256 + 1 * q.val = q.val; omega
  show k1_pay1 (F := Ideal) (iblk1 V c 0 t) (iblk1 V c 1 t) (iblk1 V c 2 t) (iblk1 V c 3 t) (iblk1 V c 4 t) (iblk1 V c 5 t) (ix2 p q)
      = whole V c (((cfg1.win 6).blk t).view.emb (ix2 p q))
  rw [hemb]
  refine (stored_entry (iblk1 V c 0 t) (iblk1 V c 1 t) (iblk1 V c 2 t) (iblk1 V c 3 t) (iblk1 V c 4 t) (iblk1 V c 5 t) p q).trans ?_
  unfold whole
  rw [layer_apply]
  exact layerEntry_congr _ _ _ _ _ _ _ _ _ _ _ _ p (rowOf t p) q
    (fun k => block0_apply V c t p k) (fun k => block1_apply V c t p k)
    (fun k => block2_apply V c t k q) (block3_apply V c t q)
    (fun k => block4_apply V c t k q) (block5_apply V c t q)

/-- An index of the result array is in point `t`'s block iff each coordinate is in the block's range on its axis. -/
theorem mem_block (t : Fin cfg1.N) (i : S30000x256.Idx) :
    i ∈ ((cfg1.win 6).blk t).view.set ↔ ∀ a : Fin 2, win1_6.index t a * S3000x256.size a ≤ (i a).val ∧ (i a).val < win1_6.index t a * S3000x256.size a + S3000x256.size a := by
  show i ∈ ((View.whole main_v31).slice (win1_6.rect t)).set ↔ _
  rw [View.set_slice_whole, Rect.mem_set_unit]
  exact Iff.rfl

/-- The ten row blocks tile the array: row `r` lies in the block of point `r / 3000`. -/
theorem covered (i : S30000x256.Idx) :
    ∃ t : Fin cfg1.N, (cfg1.win 6).flush t = true ∧ i ∈ ((cfg1.win 6).blk t).view.set := by
  have hi0 : (i 0).val < 30000 := (i 0).isLt
  have hi1 : (i 1).val < 256 := (i 1).isLt
  obtain ⟨t, ht⟩ : ∃ t : Fin cfg1.N, t.val = (i 0).val / 3000 :=
    ⟨⟨(i 0).val / 3000, by show (i 0).val / 3000 < grid1.N; rw [N_1]; omega⟩, rfl⟩
  obtain ⟨-, -, -, -, -, -, -, -, -, -, -, -, e0, e1, -⟩ := block_indices t
  refine ⟨t, flush1_6 t, ?_⟩
  rw [mem_block]
  intro a
  match a with
  | ⟨0, _⟩ => show win1_6.index t (0 : Fin 2) * 3000 ≤ (i 0).val ∧ (i 0).val < win1_6.index t (0 : Fin 2) * 3000 + 3000; omega
  | ⟨1, _⟩ => show win1_6.index t (1 : Fin 2) * 256 ≤ (i 1).val ∧ (i 1).val < win1_6.index t (1 : Fin 2) * 256 + 256; omega

/-- THE RESULT ARRAY when the launch is over: the layer of the whole arrays it found. -/
theorem result (c : Dev nD) : (dat1 V c).arrAt 6 cfg1.N = whole V c :=
  (dat1 V c).arrAt_eq_of_cover 6 (whole V c) (fun t _ => flushed_eq V c t) (covered)

end Cert.KernelIdeal.Launch1

end
-- ==== Proof.Launch2.lean ====
/-
  Launch 2 of the layer's kernel: what its result array holds when the launch is over.

  The launch runs the body at ten grid points. Point `t` is handed rows `3000·t … 3000·t + 2999` of the aggregate and of
  the feature matrix, the two weight matrices and the two one-row bias matrices whole, and writes back rows
  `3000·t … 3000·t + 2999` of the result. An entry of the layer in row `r` depends on row `r` of the aggregate and of
  the features only, so what point `t` writes back is exactly rows `3000·t …` of the layer of the WHOLE arrays; the
  ten row blocks tile the 30000 rows, hence the result array ends holding the layer of the arrays the launch found
  (the second-hop aggregate and the first launch's result, the second layer's weights and biases).
-/
import proofs.«100432_j88622355186375_1_alg».proof.Proof.Gen.KernelIdeal.Frame
import proofs.«100432_j88622355186375_1_alg».proof.Proof.InceptionLayer
import Idealize.ShloMosaic.Lib.Pipeline.Value
import Idealize.ShloMosaic.Lib.ValueIdx

set_option maxRecDepth 16384

noncomputable section

namespace Cert.KernelIdeal.Launch2

open Idealize.ShloMosaic Idealize.ShloMosaic.TcCoe Idealize.ShloMosaic.ValueIdx Idealize.SL.Sem
open Idealize.ShloMosaic.Pipeline (Dat)
open Cert.KernelIdeal Cert.KernelIdeal.Gen Cert.Inception

-- the buffer contents the launch is entered with
variable (V : (c : Dev nD) → (b : Ref sig .tc) → Buf (Elt Ideal) ((c : Thread nD τ).loc b))

theorem origin_zero : (![0, 0] : Fin 2 → Nat) = fun _ => 0 := funext fun a => by fin_cases a <;> rfl

/-- The body's stored value at `(r, j)` is the layer's entry of the loaded blocks. -/
theorem stored_entry (x0 x1 : Vec Ideal S3000x256 .f32) (x2 : Vec Ideal S256x128 .f32) (x3 : Vec Ideal S1x128 .f32)
    (x4 : Vec Ideal S256x128 .f32) (x5 : Vec Ideal S1x128 .f32) (r : Fin 3000) (j : Fin 128) :
    k2_pay1 (F := Ideal) x0 x1 x2 x3 x4 x5 (ix2 r j)
      = layerEntry x0 x1 x2 (fun j => x3 (ix2 (0 : Fin 1) j)) x4 (fun j => x5 (ix2 (0 : Fin 1) j)) r j := by
  unfold k2_pay1
  simp only [shapeCast_self]
  exact body_entry 3000 256 128 _ _ _ x0 x1 x2 x4 x3 x5 r j

/-- The windows' block indices at point `t`, decided over the ten points: the aggregate, the features and the result
    move with the point along the rows; the weights and biases stay at block `(0, 0)`. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 10 :=
  (by decide +kernel : ∀ t : Fin grid2.N, _)

/-- Row `p` of point `t`'s block is row `3000·t + p` of the array. -/
def rowOf (t : Fin cfg2.N) (p : Fin 3000) : Fin 30000 :=
  ⟨t.val * 3000 + p.val, by have := (block_indices t).2.2.2.2.2.2.2.2.2.2.2.2.2.2; have := p.isLt; omega⟩

/-- The aggregate's block at point `t`, read at `(p, k)`. -/
theorem block0_apply (c : Dev nD) (t : Fin cfg2.N) (p : Fin 3000) (k : Fin 256) :
    iblk2 V c 0 t (ix2 p k) = V c main_v44 (ix2 (rowOf t p) k) := by
  obtain ⟨e0, e1, -⟩ := block_indices t
  show V c main_v44 (((cfg2.win 0).blk t).view.emb (ix2 p k)) = _
  refine congrArg (V c main_v44) ?_
  funext a; apply Fin.ext
  match a with
  | ⟨0, _⟩ => show win2_0.index t (0 : Fin 2) * 3000 + 1 * p.val = t.val * 3000 + p.val; omega
  | ⟨1, _⟩ => show win2_0.index t (1 : Fin 2) * 256 + 1 * k.val = k.val; omega

/-- The features' block at point `t`, read at `(p, k)`. -/
theorem block1_apply (c : Dev nD) (t : Fin cfg2.N) (p : Fin 3000) (k : Fin 256) :
    iblk2 V c 1 t (ix2 p k) = V c main_v28 (ix2 (rowOf t p) k) := by
  obtain ⟨-, -, e0, e1, -⟩ := block_indices t
  show V c main_v28 (((cfg2.win 1).blk t).view.emb (ix2 p k)) = _
  refine congrArg (V c main_v28) ?_
  funext a; apply Fin.ext
  match a with
  | ⟨0, _⟩ => show win2_1.index t (0 : Fin 2) * 3000 + 1 * p.val = t.val * 3000 + p.val; omega
  | ⟨1, _⟩ => show win2_1.index t (1 : Fin 2) * 256 + 1 * k.val = k.val; omega

/-- The first weight matrix's block at any point is the whole matrix. -/
theorem block2_apply (c : Dev nD) (t : Fin cfg2.N) (k : Fin 256) (j : Fin 128) :
    iblk2 V c 2 t (ix2 k j) = V c main_arg9 (ix2 k j) := by
  obtain ⟨-, -, -, -, e0, e1, -⟩ := block_indices t
  show V c main_arg9 (((cfg2.win 2).blk t).view.emb (ix2 k j)) = _
  refine congrArg (V c main_arg9) ?_
  funext a; apply Fin.ext
  match a with
  | ⟨0, _⟩ => show win2_2.index t (0 : Fin 2) * 256 + 1 * k.val = k.val; omega
  | ⟨1, _⟩ => show win2_2.index t (1 : Fin 2) * 128 + 1 * j.val = j.val; omega

/-- The first bias row's block at any point is the whole row. -/
theorem block3_apply (c : Dev nD) (t : Fin cfg2.N) (j : Fin 128) :
    iblk2 V c 3 t (ix2 (0 : Fin 1) j) = V c main_v45 (ix2 (0 : Fin 1) j) := by
  obtain ⟨-, -, -, -, -, -, e0, e1, -⟩ := block_indices t
  show V c main_v45 (((cfg2.win 3).blk t).view.emb (ix2 (0 : Fin 1) j)) = _
  refine congrArg (V c main_v45) ?_
  funext a; apply Fin.ext
  match a with
  | ⟨0, _⟩ => show win2_3.index t (0 : Fin 2) * 1 + 1 * 0 = 0; omega
  | ⟨1, _⟩ => show win2_3.index t (1 : Fin 2) * 128 + 1 * j.val = j.val; omega

/-- The second weight matrix's block at any point is the whole matrix. -/
theorem block4_apply (c : Dev nD) (t : Fin cfg2.N) (k : Fin 256) (j : Fin 128) :
    iblk2 V c 4 t (ix2 k j) = V c main_arg11 (ix2 k j) := by
  obtain ⟨-, -, -, -, -, -, -, -, e0, e1, -⟩ := block_indices t
  show V c main_arg11 (((cfg2.win 4).blk t).view.emb (ix2 k j)) = _
  refine congrArg (V c main_arg11) ?_
  funext a; apply Fin.ext
  match a with
  | ⟨0, _⟩ => show win2_4.index t (0 : Fin 2) * 256 + 1 * k.val = k.val; omega
  | ⟨1, _⟩ => show win2_4.index t (1 : Fin 2) * 128 + 1 * j.val = j.val; omega

/-- The second bias row's block at any point is the whole row. -/
theorem block5_apply (c : Dev nD) (t : Fin cfg2.N) (j : Fin 128) :
    iblk2 V c 5 t (ix2 (0 : Fin 1) j) = V c main_v46 (ix2 (0 : Fin 1) j) := by
  obtain ⟨-, -, -, -, -, -, -, -, -, -, e0, e1, -⟩ := block_indices t
  show V c main_v46 (((cfg2.win 5).blk t).view.emb (ix2 (0 : Fin 1) j)) = _
  refine congrArg (V c main_v46) ?_
  funext a; apply Fin.ext
  match a with
  | ⟨0, _⟩ => show win2_5.index t (0 : Fin 2) * 1 + 1 * 0 = 0; omega
  | ⟨1, _⟩ => show win2_5.index t (1 : Fin 2) * 128 + 1 * j.val = j.val; omega

/-- The layer of the whole arrays the launch found. -/
def whole (c : Dev nD) : S30000x128.Idx → EReal :=
  layer (A := 30000) (K := 256) (B := 128) (V c main_v44) (V c main_v28) (V c main_arg9) (fun j => V c main_v45 (ix2 (0 : Fin 1) j))
    (V c main_arg11) (fun j => V c main_v46 (ix2 (0 : Fin 1) j))

/-- WHAT POINT `t` WRITES BACK is block `t` of the layer of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero origin_zero]
  simp only [View.ld_unit_zero (S := S3000x256) origin_zero, View.ld_unit_zero (S := S256x128) origin_zero,
    View.ld_unit_zero (S := S1x128) origin_zero]
  funext y
  obtain ⟨p, q, rfl⟩ : ∃ (p : Fin 3000) (q : Fin 128), y = ix2 p q := ⟨y 0, y 1, eq_ix2 y⟩
  obtain ⟨-, -, -, -, -, -, -, -, -, -, -, -, e0, e1, -⟩ := block_indices t
  have hemb : ((cfg2.win 6).blk t).view.emb (ix2 p q) = ix2 (rowOf t p) q := by
    funext a; apply Fin.ext
    match a with
    | ⟨0, _⟩ => show win2_6.index t (0 : Fin 2) * 3000 + 1 * p.val = t.val * 3000 + p.val; omega
    | ⟨1, _⟩ => show win2_6.index t (1 : Fin 2) * 128 + 1 * q.val = q.val; omega
  show k2_pay1 (F := Ideal) (iblk2 V c 0 t) (iblk2 V c 1 t) (iblk2 V c 2 t) (iblk2 V c 3 t) (iblk2 V c 4 t) (iblk2 V c 5 t) (ix2 p q)
      = whole V c (((cfg2.win 6).blk t).view.emb (ix2 p q))
  rw [hemb]
  refine (stored_entry (iblk2 V c 0 t) (iblk2 V c 1 t) (iblk2 V c 2 t) (iblk2 V c 3 t) (iblk2 V c 4 t) (iblk2 V c 5 t) p q).trans ?_
  unfold whole
  rw [layer_apply]
  exact layerEntry_congr _ _ _ _ _ _ _ _ _ _ _ _ p (rowOf t p) q
    (fun k => block0_apply V c t p k) (fun k => block1_apply V c t p k)
    (fun k => block2_apply V c t k q) (block3_apply V c t q)
    (fun k => block4_apply V c t k q) (block5_apply V c t q)

/-- An index of the result array is in point `t`'s block iff each coordinate is in the block's range on its axis. -/
theorem mem_block (t : Fin cfg2.N) (i : S30000x128.Idx) :
    i ∈ ((cfg2.win 6).blk t).view.set ↔ ∀ a : Fin 2, win2_6.index t a * S3000x128.size a ≤ (i a).val ∧ (i a).val < win2_6.index t a * S3000x128.size a + S3000x128.size a := by
  show i ∈ ((View.whole main_v47).slice (win2_6.rect t)).set ↔ _
  rw [View.set_slice_whole, Rect.mem_set_unit]
  exact Iff.rfl

/-- The ten row blocks tile the array: row `r` lies in the block of point `r / 3000`. -/
theorem covered (i : S30000x128.Idx) :
    ∃ t : Fin cfg2.N, (cfg2.win 6).flush t = true ∧ i ∈ ((cfg2.win 6).blk t).view.set := by
  have hi0 : (i 0).val < 30000 := (i 0).isLt
  have hi1 : (i 1).val < 128 := (i 1).isLt
  obtain ⟨t, ht⟩ : ∃ t : Fin cfg2.N, t.val = (i 0).val / 3000 :=
    ⟨⟨(i 0).val / 3000, by show (i 0).val / 3000 < grid2.N; rw [N_2]; omega⟩, rfl⟩
  obtain ⟨-, -, -, -, -, -, -, -, -, -, -, -, e0, e1, -⟩ := block_indices t
  refine ⟨t, flush2_6 t, ?_⟩
  rw [mem_block]
  intro a
  match a with
  | ⟨0, _⟩ => show win2_6.index t (0 : Fin 2) * 3000 ≤ (i 0).val ∧ (i 0).val < win2_6.index t (0 : Fin 2) * 3000 + 3000; omega
  | ⟨1, _⟩ => show win2_6.index t (1 : Fin 2) * 128 ≤ (i 1).val ∧ (i 1).val < win2_6.index t (1 : Fin 2) * 128 + 128; omega

/-- THE RESULT ARRAY when the launch is over: the layer of the whole arrays it found. -/
theorem result (c : Dev nD) : (dat2 V c).arrAt 6 cfg2.N = whole V c :=
  (dat2 V c).arrAt_eq_of_cover 6 (whole V c) (fun t _ => flushed_eq V c t) (covered)

end Cert.KernelIdeal.Launch2

end
-- ==== Proof.KernelValue.lean ====
/-
  The idealized kernel program's result is the network of its arguments.

  The first launch finds the left aggregate, the left features and the first layer's weights and bias rows, so its
  result array is the left branch of hop one; the second launch finds the right aggregate and the right features, so
  its result is the right branch; the third finds the aggregate of the right branch, the left branch and the second
  layer's weights and bias rows, so the program's result is the left branch of hop two: the network.
-/
import proofs.«100432_j88622355186375_1_alg».proof.Proof.KernelEntry
import proofs.«100432_j88622355186375_1_alg».proof.Proof.Launch0
import proofs.«100432_j88622355186375_1_alg».proof.Proof.Launch1
import proofs.«100432_j88622355186375_1_alg».proof.Proof.Launch2

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.Inception

variable (m : (ℓ : Loc nD τ sig) → Buf (Elt Ideal) ℓ) (ρ : Dev nD → PrngReg) (c : Dev nD)

/-- THE FIRST LAUNCH'S RESULT: the left branch of hop one. -/
theorem hop1_left : W2 m ρ c (Proc.devRef .tc main_v28)
    = layer (agg64 (m ((c : Thread nD τ).loc main_arg2)) (m ((c : Thread nD τ).loc main_arg3)) (m ((c : Thread nD τ).loc main_arg4)) (m ((c : Thread nD τ).loc main_arg1))) (m ((c : Thread nD τ).loc main_arg0)) (m ((c : Thread nD τ).loc main_arg5)) (fun j => m ((c : Thread nD τ).loc main_arg6) (ix1 j)) (m ((c : Thread nD τ).loc main_arg7)) (fun j => m ((c : Thread nD τ).loc main_arg8) (ix1 j)) := by
  refine (W2_arr m ρ c 6).trans ((Launch0.result (V1 m ρ) c).trans ?_)
  unfold Launch0.whole
  have h0 := left_aggregate m ρ c
  have h1 : V1 m ρ c main_arg0 = m ((c : Thread nD τ).loc main_arg0) := arg0_at1 m ρ c
  have h2 : V1 m ρ c main_arg5 = m ((c : Thread nD τ).loc main_arg5) := arg5_at1 m ρ c
  have h4 : V1 m ρ c main_arg7 = m ((c : Thread nD τ).loc main_arg7) := arg7_at1 m ρ c
  have hb : (fun j : Fin 256 => V1 m ρ c main_v26 (ix2 (0 : Fin 1) j)) = fun j => m ((c : Thread nD τ).loc main_arg6) (ix1 j) :=
    funext fun j => bias1_row_at1 m ρ c j
  have hb' : (fun j : Fin 256 => V1 m ρ c main_v27 (ix2 (0 : Fin 1) j)) = fun j => m ((c : Thread nD τ).loc main_arg8) (ix1 j) :=
    funext fun j => bias2_row_at1 m ρ c j
  rw [h0, h1, h2, h4, hb, hb']

/-- THE SECOND LAUNCH'S RESULT: the right branch of hop one. -/
theorem hop1_right : W4 m ρ c (Proc.devRef .tc main_v31)
    = layer (agg64 (m ((c : Thread nD τ).loc main_arg3)) (m ((c : Thread nD τ).loc main_arg2)) (m ((c : Thread nD τ).loc main_arg4)) (m ((c : Thread nD τ).loc main_arg0))) (m ((c : Thread nD τ).loc main_arg1)) (m ((c : Thread nD τ).loc main_arg5)) (fun j => m ((c : Thread nD τ).loc main_arg6) (ix1 j)) (m ((c : Thread nD τ).loc main_arg7)) (fun j => m ((c : Thread nD τ).loc main_arg8) (ix1 j)) := by
  refine (W4_arr m ρ c 6).trans ((Launch1.result (V3 m ρ) c).trans ?_)
  unfold Launch1.whole
  have h0 := right_aggregate m ρ c
  have h1 : V3 m ρ c main_arg1 = m ((c : Thread nD τ).loc main_arg1) := arg1_at3 m ρ c
  have h2 : V3 m ρ c main_arg5 = m ((c : Thread nD τ).loc main_arg5) := arg5_at3 m ρ c
  have h4 : V3 m ρ c main_arg7 = m ((c : Thread nD τ).loc main_arg7) := arg7_at3 m ρ c
  have hb : (fun j : Fin 256 => V3 m ρ c main_v29 (ix2 (0 : Fin 1) j)) = fun j => m ((c : Thread nD τ).loc main_arg6) (ix1 j) :=
    funext fun j => bias1_row_at3 m ρ c j
  have hb' : (fun j : Fin 256 => V3 m ρ c main_v30 (ix2 (0 : Fin 1) j)) = fun j => m ((c : Thread nD τ).loc main_arg8) (ix1 j) :=
    funext fun j => bias2_row_at3 m ρ c j
  rw [h0, h1, h2, h4, hb, hb']

/-- THE PROGRAM'S RESULT: the network of the thirteen arguments. -/
theorem result_eq : W6 m ρ c (Proc.devRef .tc main_v47)
    = net agg64 agg256 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  refine (W6_arr m ρ c 6).trans ((Launch2.result (V5 m ρ) c).trans ?_)
  unfold Launch2.whole net
  have h0 := hop2_aggregate m ρ c
  have h1 := (first_result_at5 m ρ c).trans (hop1_left m ρ c)
  have h2 : V5 m ρ c main_arg9 = m ((c : Thread nD τ).loc main_arg9) := arg9_at5 m ρ c
  have h4 : V5 m ρ c main_arg11 = m ((c : Thread nD τ).loc main_arg11) := arg11_at5 m ρ c
  have hb : (fun j : Fin 128 => V5 m ρ c main_v45 (ix2 (0 : Fin 1) j)) = fun j => m ((c : Thread nD τ).loc main_arg10) (ix1 j) :=
    funext fun j => bias3_row_at5 m ρ c j
  have hb' : (fun j : Fin 128 => V5 m ρ c main_v46 (ix2 (0 : Fin 1) j)) = fun j => m ((c : Thread nD τ).loc main_arg12) (ix1 j) :=
    funext fun j => bias4_row_at5 m ρ c j
  rw [h0, hop1_right m ρ c, h1, h2, h4, hb, hb']

end Cert.KernelIdeal.Net

end
-- ==== Proof.ReferenceValue.lean ====
/-
  The reference program's result is the network of its arguments.

  The reference is a straight line of host operations. Its two first-hop aggregations and its second-hop aggregation
  are the shared aggregation line; each of its three layers is two host matrix products, each plus a bias vector
  broadcast to a row and down the rows, added, and the larger of that and zero. Read entry by entry, each layer is
  `layer` of its operands, so the result is `net` of the thirteen arguments. (The reference also computes the right
  branch of hop two; its result is never read.)
-/
import proofs.«100432_j88622355186375_1_alg».proof.Proof.Gen.ReferenceIdeal.Read
import proofs.«100432_j88622355186375_1_alg».proof.Proof.Network
import proofs.«100432_j88622355186375_1_alg».proof.Proof.SpMM

noncomputable section

namespace Cert.ReferenceIdeal.Net

open Cert.ReferenceIdeal Cert.ReferenceIdeal.Gen Cert.ReferenceIdeal.Read Cert.Inception
open Idealize.ShloMosaic Idealize.ShloMosaic.ValueIdx

/-- The aggregation of a 64-feature matrix, with this program's records. -/
def agg64 : Agg 64 := fun rows cols vals feat =>
  spmm (F := Ideal) 64 gather_S30000x64_S480000x1_S480000x64_1_0_n_n_0_1_164 scatter_S30000x64_S480000x1_S480000x64_1_0_0_1
    bcast_S480000_S480000x1_0 bcast_S_S480000 bcast_S480000x1_S480000x64_0_1 bcast_S_S30000x64 rows cols vals feat

/-- The aggregation of a 256-feature matrix, with this program's records. -/
def agg256 : Agg 256 := fun rows cols vals feat =>
  spmm (F := Ideal) 256 gather_S30000x256_S480000x1_S480000x256_1_0_n_n_0_1_1256 scatter_S30000x256_S480000x1_S480000x256_1_0_0_1
    bcast_S480000_S480000x1_0 bcast_S_S480000 bcast_S480000x1_S480000x256_0_1 bcast_S_S30000x256 rows cols vals feat

variable (x0 x1 : (⟨S30000x64, .f32⟩ : BufTy).Contents (Elt Ideal)) (x2 x3 : (⟨S480000, .i32⟩ : BufTy).Contents (Elt Ideal))
  (x4 : (⟨S480000, .f32⟩ : BufTy).Contents (Elt Ideal)) (x5 : (⟨S64x256, .f32⟩ : BufTy).Contents (Elt Ideal))
  (x6 : (⟨S256, .f32⟩ : BufTy).Contents (Elt Ideal)) (x7 : (⟨S64x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal)) (x11 : (⟨S256x128, .f32⟩ : BufTy).Contents (Elt Ideal))
  (x12 : (⟨S128, .f32⟩ : BufTy).Contents (Elt Ideal))

/-- The left first-hop aggregate: edges followed from row index to column index, over the right features. -/
theorem aggregate_left : val_main_v12 (F := Ideal) x1 x2 x3 x4 = agg64 x2 x3 x4 x1 := rfl

/-- The right first-hop aggregate: the transposed graph, over the left features. -/
theorem aggregate_right : val_main_v25 (F := Ideal) x0 x2 x3 x4 = agg64 x3 x2 x4 x0 := rfl

/-- The left branch of hop one is the layer of the left aggregate and the left features. -/
theorem hop1_left : val_main_v46 (F := Ideal) x0 x1 x2 x3 x4 x5 x6 x7 x8
    = layer (agg64 x2 x3 x4 x1) x0 x5 (fun j => x6 (ix1 j)) x7 (fun j => x8 (ix1 j)) := by
  funext q
  obtain ⟨r, j, rfl⟩ : ∃ (r : Fin 30000) (j : Fin 256), q = ix2 r j := ⟨q 0, q 1, eq_ix2 q⟩
  rw [layer_apply, ← aggregate_left]
  unfold val_main_v46 val_main_v44 val_main_v29 val_main_v38 val_main_v26 val_main_v28 val_main_v27 val_main_v35
    val_main_v34 val_main_v37 val_main_v36 val_main_call0_v0 val_main_call0_cst
  exact hostLayer_entry 30000 64 256 _ _ _ _ (val_main_v12 (F := Ideal) x1 x2 x3 x4) x0 x5 x7 x6 x8 r j

/-- The right branch of hop one is the layer of the right aggregate and the right features. -/
theorem hop1_right : val_main_v47 (F := Ideal) x0 x1 x2 x3 x4 x5 x6 x7 x8
    = layer (agg64 x3 x2 x4 x0) x1 x5 (fun j => x6 (ix1 j)) x7 (fun j => x8 (ix1 j)) := by
  funext q
  obtain ⟨r, j, rfl⟩ : ∃ (r : Fin 30000) (j : Fin 256), q = ix2 r j := ⟨q 0, q 1, eq_ix2 q⟩
  rw [layer_apply, ← aggregate_right]
  unfold val_main_v47 val_main_v45 val_main_v33 val_main_v43 val_main_v30 val_main_v32 val_main_v31 val_main_v40
    val_main_v39 val_main_v42 val_main_v41 val_main_call1_v0 val_main_call1_cst
  exact hostLayer_entry 30000 64 256 _ _ _ _ (val_main_v25 (F := Ideal) x0 x2 x3 x4) x1 x5 x7 x6 x8 r j

/-- The second-hop aggregate: the graph again, over the right branch of hop one. -/
theorem aggregate_hop2 : val_main_v60 (F := Ideal) x0 x1 x2 x3 x4 x5 x6 x7 x8 = agg256 x2 x3 x4 (val_main_v47 (F := Ideal) x0 x1 x2 x3 x4 x5 x6 x7 x8) := rfl

/-- THE REFERENCE'S RESULT: the network of the thirteen arguments. -/
theorem result_eq : val_main_v94 (F := Ideal) x0 x1 x2 x3 x4 x5 x6 x7 x8 x9 x10 x11 x12
    = net agg64 agg256 x0 x1 x2 x3 x4 x5 x6 x7 x8 x9 x10 x11 x12 := by
  unfold net
  rw [← hop1_left x0 x1 x2 x3 x4 x5 x6 x7 x8, ← hop1_right x0 x1 x2 x3 x4 x5 x6 x7 x8, ← aggregate_hop2]
  funext q
  obtain ⟨r, j, rfl⟩ : ∃ (r : Fin 30000) (j : Fin 128), q = ix2 r j := ⟨q 0, q 1, eq_ix2 q⟩
  rw [layer_apply]
  unfold val_main_v94 val_main_v92 val_main_v77 val_main_v86 val_main_v74 val_main_v76 val_main_v75 val_main_v83
    val_main_v82 val_main_v85 val_main_v84 val_main_call2_v0 val_main_call2_cst
  exact hostLayer_entry 30000 256 128 _ _ _ _ (val_main_v60 (F := Ideal) x0 x1 x2 x3 x4 x5 x6 x7 x8) (val_main_v46 (F := Ideal) x0 x1 x2 x3 x4 x5 x6 x7 x8) x9 x11 x10 x12 r j

end Cert.ReferenceIdeal.Net

end
-- ==== Proof.lean ====
/-
  Equivalence of a fused two-hop graph network kernel and its reference over the extended reals.

  Both programs compute, from left and right node features `l`, `r`, a weighted edge list and four dense layers'
  weights and biases,

      y₁  = layer (agg rows cols vals r) l  W₁ b₁ W₂ b₂
      z₁  = layer (agg cols rows vals l) r  W₁ b₁ W₂ b₂
      out = layer (agg rows cols vals z₁) y₁ W₃ b₃ W₄ b₄,      layer a x w b w' b' = max ((a·w + b) + ((a∘x)·w' + b'), 0),

  where `agg` is the sparse aggregation along the edges. The reference is one straight line of host operations. The
  kernel program keeps the three aggregations on the host, by the same operations, and computes each layer in a
  launch of one kernel that works on blocks of 3000 rows: it rounds the operands of its two matrix products to a
  narrower format (the identity on exact values), multiplies into zero accumulators, adds the biases given as one-row
  matrices, and takes the larger of the sum and zero.

  An entry of a layer in row `r` depends on row `r` of the aggregate and of the features only, so a launch's ten row
  blocks are the rows of the layer of the whole arrays (Launch0, Launch1, Launch2); reading the contents of the
  buffers backwards from boundary to boundary shows what each launch finds (KernelEntry), and so the kernel program's
  result is the network of its arguments (KernelValue). The reference's result is the same network, each of its layers
  read entry by entry (ReferenceValue). The two uses of the aggregation line differ only in the records each program
  prints for it, which are equal. No law of arithmetic is needed beyond reading each operation at an entry — the sums
  are grouped alike on both sides — so the finiteness of the inputs is never used.

  The idealization rewrote nothing, so it is preserved trivially; each program's frame is its run with the result
  forgotten.
-/
import proofs.«100432_j88622355186375_1_alg».proof.Defs
import proofs.«100432_j88622355186375_1_alg».proof.Proof.Gen.Kernel
import proofs.«100432_j88622355186375_1_alg».proof.Proof.Gen.Kernel.Skeleton
import proofs.«100432_j88622355186375_1_alg».proof.Proof.Gen.Kernel.Launch
import proofs.«100432_j88622355186375_1_alg».proof.Proof.Gen.Kernel.Points
import proofs.«100432_j88622355186375_1_alg».proof.Proof.Gen.Kernel.Frame
import proofs.«100432_j88622355186375_1_alg».proof.Proof.Gen.KernelIdeal
import proofs.«100432_j88622355186375_1_alg».proof.Proof.Gen.KernelIdeal.Skeleton
import proofs.«100432_j88622355186375_1_alg».proof.Proof.Gen.KernelIdeal.Launch
import proofs.«100432_j88622355186375_1_alg».proof.Proof.Gen.KernelIdeal.Points
import proofs.«100432_j88622355186375_1_alg».proof.Proof.Gen.KernelIdeal.Frame
import proofs.«100432_j88622355186375_1_alg».proof.Proof.Gen.ReferenceIdeal
import proofs.«100432_j88622355186375_1_alg».proof.Proof.Gen.ReferenceIdeal.Run
import proofs.«100432_j88622355186375_1_alg».proof.Proof.Gen.ReferenceIdeal.Read
import proofs.«100432_j88622355186375_1_alg».proof.Proof.Gen.Pre_finite_inputs
import proofs.«100432_j88622355186375_1_alg».proof.Proof.KernelRun
import proofs.«100432_j88622355186375_1_alg».proof.Proof.KernelValue
import proofs.«100432_j88622355186375_1_alg».proof.Proof.ReferenceValue
import Idealize.ShloMosaic.Adequacy
import Idealize.ShloMosaic.Init

noncomputable section

namespace Cert.Proof

open Idealize.ShloMosaic Idealize.ShloMosaic.TcCoe Idealize.SL.Sem

/-- The two programs' aggregation lines over 64-feature matrices are one function: their printed records are equal. -/
theorem agg64_eq : Cert.ReferenceIdeal.Net.agg64 = Cert.KernelIdeal.Net.agg64 := rfl

/-- The same over 256-feature matrices. -/
theorem agg256_eq : Cert.ReferenceIdeal.Net.agg256 = Cert.KernelIdeal.Net.agg256 := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments in their result
    buffers. -/
theorem algebraic : Cert.algebraic_KernelIdeal_ReferenceIdeal := by
  intro m ρ m' ρ' _ hagree
  refine ⟨fun c => Cert.KernelIdeal.Gen.W6 m ρ c (Proc.devRef .tc Cert.KernelIdeal.main_v47),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  show Cert.ReferenceIdeal.Value.res_main_v94 m' c = Cert.KernelIdeal.Gen.W6 m ρ c (Proc.devRef .tc Cert.KernelIdeal.main_v47)
  rw [Cert.ReferenceIdeal.Read.val_main_v94_eq, Cert.ReferenceIdeal.Net.result_eq, Cert.KernelIdeal.Net.result_eq,
    e0, e1, e2, e3, e4, e5, e6, e7, e8, e9, e10, e11, e12, agg64_eq, agg256_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
